-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x1000 : Shape := ⟨2, ![256, 1000]⟩
abbrev S1000 : Shape := ⟨1, ![1000]⟩
abbrev S1000x5000 : Shape := ⟨2, ![1000, 5000]⟩
abbrev S5000 : Shape := ⟨1, ![5000]⟩
abbrev S500000 : Shape := ⟨1, ![500000]⟩
abbrev S100000 : Shape := ⟨1, ![100000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x1000 : S_.BroadcastsInDim S256x1000 (![] : Fin 0 → Fin S256x1000.rank)
  reducesTo_S256x1000_S_d0_1 : S256x1000.ReducesTo [0, 1] S_
  bcast_S_S1000 : S_.BroadcastsInDim S1000 (![] : Fin 0 → Fin S1000.rank)
  reducesTo_S1000_S_d0 : S1000.ReducesTo [0] S_
  bcast_S_S1000x5000 : S_.BroadcastsInDim S1000x5000 (![] : Fin 0 → Fin S1000x5000.rank)
  reducesTo_S1000x5000_S_d0_1 : S1000x5000.ReducesTo [0, 1] S_
  bcast_S_S5000 : S_.BroadcastsInDim S5000 (![] : Fin 0 → Fin S5000.rank)
  reducesTo_S5000_S_d0 : S5000.ReducesTo [0] S_

variable [Facts]

def fn_part1 {F : FTy → Type} [FloatOps F] (main_arg4 : FVec F S5000 .f32) (main_v13 : IVec S_ 1) (main_v16 : IVec S1000x5000 1) : IVec S_ 1 :=
  let main_c_5 : IVec S_ 1 := constantI S_ 1 1#1
  let main_v17 : IVec S_ 1 := (fun x v => Host.reduce IntOp.andi x v reducesTo_S1000x5000_S_d0_1 h_S_) main_v16 main_c_5
  let main_v18 : IVec S_ 1 := andi main_v13 main_v17
  let main_v19 : FVec F S5000 .f32 := Host.absf main_arg4
  let main_cst_6 : FVec F S_ .f32 := constant S_ .f32 0x7F800000#32
  let main_v20 : FVec F S5000 .f32 := broadcastInDim S5000 ![] bcast_S_S5000 main_cst_6
  let main_v21 : IVec S5000 1 := cmpf .olt main_v19 main_v20
  let main_c_7 : IVec S_ 1 := constantI S_ 1 1#1
  let main_v22 : IVec S_ 1 := (fun x v => Host.reduce IntOp.andi x v reducesTo_S5000_S_d0 h_S_) main_v21 main_c_7
  let main_v23 : IVec S_ 1 := andi main_v18 main_v22
  main_v23

def fn {F : FTy → Type} [FloatOps F] (main_arg0 : FVec F S50000x256 .f32) (main_arg1 : FVec F S256x1000 .f32) (main_arg2 : FVec F S1000 .f32) (main_arg3 : FVec F S1000x5000 .f32) (main_arg4 : FVec F S5000 .f32) (main_arg5 : IVec S500000 32) (main_arg6 : IVec S500000 32) (main_arg7 : IVec S100000 32) (main_arg8 : IVec S100000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x1000 .f32 := Host.absf main_arg1
  let main_cst_0 : FVec F S_ .f32 := constant S_ .f32 0x7F800000#32
  let main_v5 : FVec F S256x1000 .f32 := broadcastInDim S256x1000 ![] bcast_S_S256x1000 main_cst_0
  let main_v6 : IVec S256x1000 1 := cmpf .olt main_v4 main_v5
  let main_c_1 : IVec S_ 1 := constantI S_ 1 1#1
  let main_v7 : IVec S_ 1 := (fun x v => Host.reduce IntOp.andi x v reducesTo_S256x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S1000x5000 .f32 := Host.absf main_arg3
  let main_cst_4 : FVec F S_ .f32 := constant S_ .f32 0x7F800000#32
  let main_v15 : FVec F S1000x5000 .f32 := broadcastInDim S1000x5000 ![] bcast_S_S1000x5000 main_cst_4
  let main_v16 : IVec S1000x5000 1 := cmpf .olt main_v14 main_v15
  fn_part1 (F := F) main_arg4 main_v13 main_v16
-- ==== Kernel.lean ====
abbrev S50000x256 : Shape := ⟨2, ![50000, 256]⟩
abbrev S256x1000 : Shape := ⟨2, ![256, 1000]⟩
abbrev S1000 : Shape := ⟨1, ![1000]⟩
abbrev S1000x5000 : Shape := ⟨2, ![1000, 5000]⟩
abbrev S5000 : Shape := ⟨1, ![5000]⟩
abbrev S500000 : Shape := ⟨1, ![500000]⟩
abbrev S100000 : Shape := ⟨1, ![100000]⟩
abbrev S_ : Shape := ⟨0, ![]⟩
abbrev S50000 : Shape := ⟨1, ![50000]⟩
abbrev S500000x1 : Shape := ⟨2, ![500000, 1]⟩
abbrev S10000 : Shape := ⟨1, ![10000]⟩
abbrev S50000x1 : Shape := ⟨2, ![50000, 1]⟩
abbrev S500000x256 : Shape := ⟨2, ![500000, 256]⟩
abbrev S10000x256 : Shape := ⟨2, ![10000, 256]⟩
abbrev S10000x1 : Shape := ⟨2, ![10000, 1]⟩
abbrev S256x1024 : Shape := ⟨2, ![256, 1024]⟩
abbrev S1024 : Shape := ⟨1, ![1024]⟩
abbrev S1x1024 : Shape := ⟨2, ![1, 1024]⟩
abbrev S10000x1024 : Shape := ⟨2, ![10000, 1024]⟩
abbrev S2000x256 : Shape := ⟨2, ![2000, 256]⟩
abbrev S2000x1 : Shape := ⟨2, ![2000, 1]⟩
abbrev S2000x1024 : Shape := ⟨2, ![2000, 1024]⟩
abbrev S100000x1 : Shape := ⟨2, ![100000, 1]⟩
abbrev S2048 : Shape := ⟨1, ![2048]⟩
abbrev S100000x1024 : Shape := ⟨2, ![100000, 1024]⟩
abbrev S2048x1024 : Shape := ⟨2, ![2048, 1024]⟩
abbrev S2048x1 : Shape := ⟨2, ![2048, 1]⟩
abbrev S1024x5000 : Shape := ⟨2, ![1024, 5000]⟩
abbrev S1024x5120 : Shape := ⟨2, ![1024, 5120]⟩
abbrev S5120 : Shape := ⟨1, ![5120]⟩
abbrev S1x5120 : Shape := ⟨2, ![1, 5120]⟩
abbrev S2048x5120 : Shape := ⟨2, ![2048, 5120]⟩
abbrev S1024x512 : Shape := ⟨2, ![1024, 512]⟩
abbrev S1x512 : Shape := ⟨2, ![1, 512]⟩
abbrev S2048x512 : Shape := ⟨2, ![2048, 512]⟩
abbrev S2048x5000 : Shape := ⟨2, ![2048, 5000]⟩

abbrev nBuf : Space → Nat
  | .hbm => 105
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S256x1000, .f32⟩
  | .hbm, ⟨2, _⟩ => ⟨S1000, .f32⟩
  | .hbm, ⟨3, _⟩ => ⟨S1000x5000, .f32⟩
  | .hbm, ⟨4, _⟩ => ⟨S5000, .f32⟩
  | .hbm, ⟨5, _⟩ => ⟨S500000, .i32⟩
  | .hbm, ⟨6, _⟩ => ⟨S500000, .i32⟩
  | .hbm, ⟨7, _⟩ => ⟨S100000, .i32⟩
  | .hbm, ⟨8, _⟩ => ⟨S100000, .i32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S50000, .f32⟩
  | .hbm, ⟨13, _⟩ => ⟨S500000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S10000, .f32⟩
  | .hbm, ⟨21, _⟩ => ⟨S500000x1, .i32⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S50000, .f32⟩
  | .hbm, ⟨28, _⟩ => ⟨S50000x1, .f32⟩
  | .hbm, ⟨29, _⟩ => ⟨S50000x256, .f32⟩
  | .hbm, ⟨30, _⟩ => ⟨S50000x256, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x256, .f32⟩
  | .hbm, ⟨40, _⟩ => ⟨S_, .f32⟩
  | .hbm, ⟨41, _⟩ => ⟨S10000x256, .f32⟩
  | .hbm, ⟨42, _⟩ => ⟨S500000x1, .i32⟩
  | .hbm, ⟨43, _⟩ => ⟨S10000x256, .f32⟩
  | .hbm, ⟨44, _⟩ => ⟨S10000, .f32⟩
  | .hbm, ⟨45, _⟩ => ⟨S10000x1, .f32⟩
  | .hbm, ⟨46, _⟩ => ⟨S_, .i32⟩
  | .hbm, ⟨47, _⟩ => ⟨S_, .f32⟩
  | .hbm, ⟨48, _⟩ => ⟨S256x1024, .f32⟩
  | .hbm, ⟨49, _⟩ => ⟨S_, .i32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S256x1024, .bf16⟩
  | .hbm, ⟨54, _⟩ => ⟨S10000x1024, .f32⟩
  | .hbm, ⟨55, _⟩ => ⟨S_, .f32⟩
  | .hbm, ⟨56, _⟩ => ⟨S100000, .f32⟩
  | .hbm, ⟨57, _⟩ => ⟨S_, .f32⟩
  | .hbm, ⟨58, _⟩ => ⟨S10000, .f32⟩
  | .hbm, ⟨59, _⟩ => ⟨S100000x1, .i32⟩
  | .hbm, ⟨60, _⟩ => ⟨S10000, .f32⟩
  | .hbm, ⟨61, _⟩ => ⟨S_, .f32⟩
  | .hbm, ⟨62, _⟩ => ⟨S_, .f32⟩
  | .hbm, ⟨63, _⟩ => ⟨S10000, .f32⟩
  | .hbm, ⟨64, _⟩ => ⟨S10000, .f32⟩
  | .hbm, ⟨65, _⟩ => ⟨S_, .f32⟩
  | .hbm, ⟨66, _⟩ => ⟨S2048, .f32⟩
  | .hbm, ⟨67, _⟩ => ⟨S100000x1, .i32⟩
  | .hbm, ⟨68, _⟩ => ⟨S2048, .f32⟩
  | .hbm, ⟨69, _⟩ => ⟨S_, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S10000, .f32⟩
  | .hbm, ⟨74, _⟩ => ⟨S10000x1, .f32⟩
  | .hbm, ⟨75, _⟩ => ⟨S10000x1024, .f32⟩
  | .hbm, ⟨76, _⟩ => ⟨S10000x1024, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S100000x1024, .f32⟩
  | .hbm, ⟨86, _⟩ => ⟨S_, .f32⟩
  | .hbm, ⟨87, _⟩ => ⟨S2048x1024, .f32⟩
  | .hbm, ⟨88, _⟩ => ⟨S100000x1, .i32⟩
  | .hbm, ⟨89, _⟩ => ⟨S2048x1024, .f32⟩
  | .hbm, ⟨90, _⟩ => ⟨S2048, .f32⟩
  | .hbm, ⟨91, _⟩ => ⟨S2048x1, .f32⟩
  | .hbm, ⟨92, _⟩ => ⟨S_, .i32⟩
  | .hbm, ⟨93, _⟩ => ⟨S_, .f32⟩
  | .hbm, ⟨94, _⟩ => ⟨S1024x5000, .f32⟩
  | .hbm, ⟨95, _⟩ => ⟨S_, .i32⟩
  | .hbm, ⟨96, _⟩ => ⟨S_, .f32⟩
  | .hbm, ⟨97, _⟩ => ⟨S1024x5120, .f32⟩
  | .hbm, ⟨98, _⟩ => ⟨S_, .i32⟩
  | .hbm, ⟨99, _⟩ => ⟨S_, .f32⟩
  | .hbm, ⟨100, _⟩ => ⟨S5120, .f32⟩
  | .hbm, ⟨101, _⟩ => ⟨S1x5120, .f32⟩
  | .hbm, ⟨102, _⟩ => ⟨S1024x5120, .bf16⟩
  | .hbm, ⟨103, _⟩ => ⟨S2048x5120, .f32⟩
  | .hbm, ⟨104, _⟩ => ⟨S2048x5000, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x1024, .bf16⟩
  | .local _ .vmem, ⟨5, _⟩ => ⟨S1x1024, .f32⟩
  | .local _ .vmem, ⟨6, _⟩ => ⟨S2000x1024, .f32⟩
  | .local _ .vmem, ⟨7, _⟩ => ⟨S2000x1024, .f32⟩
  | .local _ .vmem, ⟨8, _⟩ => ⟨S2048x1024, .f32⟩
  | .local _ .vmem, ⟨9, _⟩ => ⟨S2048x1, .f32⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S2048x512, .f32⟩
  | .local _ .vmem, ⟨15, _⟩ => ⟨S2048x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_call2_v0 : Ref sig .tc := ⟨.hbm, 47, rfl⟩
abbrev main_v25 : Ref sig .tc := ⟨.hbm, 48, rfl⟩
abbrev main_c_7 : Ref sig .tc := ⟨.hbm, 49, rfl⟩
abbrev main_call3_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_v34 : Ref sig .tc := ⟨.hbm, 64, rfl⟩
abbrev main_cst_11 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_12 : Ref sig .tc := ⟨.hbm, 69, rfl⟩
abbrev main_call5_v0 : Ref sig .tc := ⟨.hbm, 70, rfl⟩
abbrev main_call5_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_13 : Ref sig .tc := ⟨.hbm, 77, rfl⟩
abbrev main_v43 : Ref sig .tc := ⟨.hbm, 78, rfl⟩
abbrev main_v44 : Ref sig .tc := ⟨.hbm, 79, rfl⟩
abbrev main_c_14 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_15 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_16 : Ref sig .tc := ⟨.hbm, 92, rfl⟩
abbrev main_call6_v0 : Ref sig .tc := ⟨.hbm, 93, rfl⟩
abbrev main_v55 : Ref sig .tc := ⟨.hbm, 94, rfl⟩
abbrev main_c_17 : Ref sig .tc := ⟨.hbm, 95, rfl⟩
abbrev main_call7_v0 : Ref sig .tc := ⟨.hbm, 96, rfl⟩
abbrev main_v56 : Ref sig .tc := ⟨.hbm, 97, rfl⟩
abbrev main_c_18 : Ref sig .tc := ⟨.hbm, 98, rfl⟩
abbrev main_call8_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S10000 : S_.BroadcastsInDim S10000 (![] : Fin 0 → Fin S10000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  pads_S256x1000_S256x1024_000_0240 : S256x1000.Pads (![0, 0] : Fin 2 → Nat) ![0, 24] ![0, 0] S256x1024
  h_S_ : 0 < S_.numel
  pads_S1000_S1024_0240 : S1000.Pads (![0] : Fin 1 → Nat) ![24] ![0] S1024
  shapeCasts_S1024_S1x1024 : S1024.ShapeCasts S1x1024
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  bcast_S_S100000 : S_.BroadcastsInDim S100000 (![] : Fin 0 → Fin S100000.rank)
  bcast_S100000_S100000x1_0 : S100000.BroadcastsInDim S100000x1 (![0] : Fin 1 → Fin S100000x1.rank)
  bcast_S_S2048 : S_.BroadcastsInDim S2048 (![] : Fin 0 → Fin S2048.rank)
  bcast_S10000x1_S10000x1024_0_1 : S10000x1.BroadcastsInDim S10000x1024 (![0, 1] : Fin 2 → Fin S10000x1024.rank)
  bcast_S_S2048x1024 : S_.BroadcastsInDim S2048x1024 (![] : Fin 0 → Fin S2048x1024.rank)
  bcast_S2048_S2048x1_0 : S2048.BroadcastsInDim S2048x1 (![0] : Fin 1 → Fin S2048x1.rank)
  pads_S1000x5000_S1024x5000_0240_000 : S1000x5000.Pads (![0, 0] : Fin 2 → Nat) ![24, 0] ![0, 0] S1024x5000
  pads_S1024x5000_S1024x5120_000_01200 : S1024x5000.Pads (![0, 0] : Fin 2 → Nat) ![0, 120] ![0, 0] S1024x5120
  pads_S5000_S5120_01200 : S5000.Pads (![0] : Fin 1 → Nat) ![120] ![0] S5120
  shapeCasts_S5120_S1x5120 : S5120.ShapeCasts S1x5120
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  slices_S2048x5120_S2048x5000_0_0 : S2048x5120.Slices ![0, 0] S2048x5000
  scatter_S50000_S500000x1_S500000_n_0_0_1_wf : ScatterDims.WF S50000 S500000x1 S500000 [] [0] [0] 1
  scatter_S10000_S500000x1_S500000_n_0_0_1_wf : ScatterDims.WF S10000 S500000x1 S500000 [] [0] [0] 1
  gather_S50000x256_S500000x1_S500000x256_1_0_n_n_0_1_1256_wf : GatherDims.WF S50000x256 S500000x1 S500000x256 [1] [0] [] [0] [] 1 ![1, 256]
  scatter_S10000x256_S500000x1_S500000x256_1_0_0_1_wf : ScatterDims.WF S10000x256 S500000x1 S500000x256 [1] [0] [0] 1
  dot_S2000x256_S256x1024_S2000x1024_1_0_0_1_n_n_wf : DotDims.WF S2000x256 S256x1024 S2000x1024 [1] [0] [0] [1] [] []
  scatter_S10000_S100000x1_S100000_n_0_0_1_wf : ScatterDims.WF S10000 S100000x1 S100000 [] [0] [0] 1
  scatter_S2048_S100000x1_S100000_n_0_0_1_wf : ScatterDims.WF S2048 S100000x1 S100000 [] [0] [0] 1
  gather_S10000x1024_S100000x1_S100000x1024_1_0_n_n_0_1_11024_wf : GatherDims.WF S10000x1024 S100000x1 S100000x1024 [1] [0] [] [0] [] 1 ![1, 1024]
  scatter_S2048x1024_S100000x1_S100000x1024_1_0_0_1_wf : ScatterDims.WF S2048x1024 S100000x1 S100000x1024 [1] [0] [0] 1
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S10000x1.size a
  hwx0_1 : ∀ i : grid0.Coords, EltTy.bits .f32 = 32 ∨ (Rect.block (s := S10000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1024.size a ≤ S10000x1024.size a
  hwx0_4 : ∀ i : grid0.Coords, EltTy.bits .f32 = 32 ∨ (Rect.block (s := S10000x1024) S2000x1024.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x1024.size a
  hwx1_0 : ∀ i : grid1.Coords, EltTy.bits .f32 = 32 ∨ (Rect.block (s := S2048x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S2048x1.size a
  hwx1_1 : ∀ i : grid1.Coords, EltTy.bits .f32 = 32 ∨ (Rect.block (s := S2048x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x5120.size a
  hwx1_2 : ∀ i : grid1.Coords, EltTy.bits .bf16 = 32 ∨ (Rect.block (s := S1024x5120) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x5120.size a
  hwx1_3 : ∀ i : grid1.Coords, EltTy.bits .f32 = 32 ∨ (Rect.block (s := S1x5120) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x5120.size a
  hwx1_4 : ∀ i : grid1.Coords, EltTy.bits .f32 = 32 ∨ (Rect.block (s := S2048x5120) S2048x512.size (cc1_transform_4 i) (hinb1_4 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S10000x256_S500000x1_S500000x256_1_0_0_1 : ScatterDims S10000x256 S500000x1 S500000x256 where
  updateWindowDims := [1]
  insertedWindowDims := [0]
  scatterDimsToOperandDims := [0]
  indexVectorDim := 1
  wf := scatter_S10000x256_S500000x1_S500000x256_1_0_0_1_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def gather_S10000x1024_S100000x1_S100000x1024_1_0_n_n_0_1_11024 : GatherDims S10000x1024 S100000x1 S100000x1024 where
  offsetDims := [1]
  collapsedSliceDims := [0]
  operandBatchingDims := []
  startIndicesBatchingDims := []
  startIndexMap := [0]
  indexVectorDim := 1
  sliceSizes := ![1, 1024]
  wf := gather_S10000x1024_S100000x1_S100000x1024_1_0_n_n_0_1_11024_wf
def scatter_S2048x1024_S100000x1_S100000x1024_1_0_0_1 : ScatterDims S2048x1024 S100000x1 S100000x1024 where
  updateWindowDims := [1]
  insertedWindowDims := [0]
  scatterDimsToOperandDims := [0]
  indexVectorDim := 1
  wf := scatter_S2048x1024_S100000x1_S100000x1024_1_0_0_1_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S2000x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S2048x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v54) S2048x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v60) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x1000 : Shape := ⟨2, ![256, 1000]⟩
abbrev S1000 : Shape := ⟨1, ![1000]⟩
abbrev S1000x5000 : Shape := ⟨2, ![1000, 5000]⟩
abbrev S5000 : Shape := ⟨1, ![5000]⟩
abbrev S500000 : Shape := ⟨1, ![500000]⟩
abbrev S100000 : Shape := ⟨1, ![100000]⟩
abbrev S_ : Shape := ⟨0, ![]⟩
abbrev S50000 : Shape := ⟨1, ![50000]⟩
abbrev S500000x1 : Shape := ⟨2, ![500000, 1]⟩
abbrev S10000 : Shape := ⟨1, ![10000]⟩
abbrev S50000x1 : Shape := ⟨2, ![50000, 1]⟩
abbrev S500000x256 : Shape := ⟨2, ![500000, 256]⟩
abbrev S10000x256 : Shape := ⟨2, ![10000, 256]⟩
abbrev S10000x1 : Shape := ⟨2, ![10000, 1]⟩
abbrev S10000x1000 : Shape := ⟨2, ![10000, 1000]⟩
abbrev S1x1000 : Shape := ⟨2, ![1, 1000]⟩
abbrev S100000x1 : Shape := ⟨2, ![100000, 1]⟩
abbrev S2048 : Shape := ⟨1, ![2048]⟩
abbrev S100000x1000 : Shape := ⟨2, ![100000, 1000]⟩
abbrev S2048x1000 : Shape := ⟨2, ![2048, 1000]⟩
abbrev S2048x1 : Shape := ⟨2, ![2048, 1]⟩
abbrev S2048x5000 : Shape := ⟨2, ![2048, 5000]⟩
abbrev S1x5000 : Shape := ⟨2, ![1, 5000]⟩

abbrev nBuf : Space → Nat
  | .hbm => 103
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x1000, .f32⟩
  | .hbm, ⟨2, _⟩ => ⟨S1000, .f32⟩
  | .hbm, ⟨3, _⟩ => ⟨S1000x5000, .f32⟩
  | .hbm, ⟨4, _⟩ => ⟨S5000, .f32⟩
  | .hbm, ⟨5, _⟩ => ⟨S500000, .i32⟩
  | .hbm, ⟨6, _⟩ => ⟨S500000, .i32⟩
  | .hbm, ⟨7, _⟩ => ⟨S100000, .i32⟩
  | .hbm, ⟨8, _⟩ => ⟨S100000, .i32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S50000, .f32⟩
  | .hbm, ⟨13, _⟩ => ⟨S500000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S10000, .f32⟩
  | .hbm, ⟨21, _⟩ => ⟨S500000x1, .i32⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S50000, .f32⟩
  | .hbm, ⟨28, _⟩ => ⟨S50000x1, .f32⟩
  | .hbm, ⟨29, _⟩ => ⟨S50000x256, .f32⟩
  | .hbm, ⟨30, _⟩ => ⟨S50000x256, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x256, .f32⟩
  | .hbm, ⟨40, _⟩ => ⟨S_, .f32⟩
  | .hbm, ⟨41, _⟩ => ⟨S10000x256, .f32⟩
  | .hbm, ⟨42, _⟩ => ⟨S500000x1, .i32⟩
  | .hbm, ⟨43, _⟩ => ⟨S10000x256, .f32⟩
  | .hbm, ⟨44, _⟩ => ⟨S10000, .f32⟩
  | .hbm, ⟨45, _⟩ => ⟨S10000x1, .f32⟩
  | .hbm, ⟨46, _⟩ => ⟨S10000x256, .f32⟩
  | .hbm, ⟨47, _⟩ => ⟨S10000x256, .f32⟩
  | .hbm, ⟨48, _⟩ => ⟨S10000x1000, .f32⟩
  | .hbm, ⟨49, _⟩ => ⟨S1x1000, .f32⟩
  | .hbm, ⟨50, _⟩ => ⟨S10000x1000, .f32⟩
  | .hbm, ⟨51, _⟩ => ⟨S10000x1000, .f32⟩
  | .hbm, ⟨52, _⟩ => ⟨S_, .f32⟩
  | .hbm, ⟨53, _⟩ => ⟨S100000, .f32⟩
  | .hbm, ⟨54, _⟩ => ⟨S_, .f32⟩
  | .hbm, ⟨55, _⟩ => ⟨S10000, .f32⟩
  | .hbm, ⟨56, _⟩ => ⟨S100000x1, .i32⟩
  | .hbm, ⟨57, _⟩ => ⟨S10000, .f32⟩
  | .hbm, ⟨58, _⟩ => ⟨S_, .f32⟩
  | .hbm, ⟨59, _⟩ => ⟨S_, .f32⟩
  | .hbm, ⟨60, _⟩ => ⟨S10000, .f32⟩
  | .hbm, ⟨61, _⟩ => ⟨S10000, .f32⟩
  | .hbm, ⟨62, _⟩ => ⟨S_, .f32⟩
  | .hbm, ⟨63, _⟩ => ⟨S2048, .f32⟩
  | .hbm, ⟨64, _⟩ => ⟨S100000x1, .i32⟩
  | .hbm, ⟨65, _⟩ => ⟨S2048, .f32⟩
  | .hbm, ⟨66, _⟩ => ⟨S_, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S10000, .f32⟩
  | .hbm, ⟨71, _⟩ => ⟨S10000x1, .f32⟩
  | .hbm, ⟨72, _⟩ => ⟨S10000x1000, .f32⟩
  | .hbm, ⟨73, _⟩ => ⟨S10000x1000, .f32⟩
  | .hbm, ⟨74, _⟩ => ⟨S_, .i32⟩
  | .hbm, ⟨75, _⟩ => ⟨S100000, .i32⟩
  | .hbm, ⟨76, _⟩ => ⟨S100000, .i1⟩
  | .hbm, ⟨77, _⟩ => ⟨S_, .i32⟩
  | .hbm, ⟨78, _⟩ => ⟨S100000, .i32⟩
  | .hbm, ⟨79, _⟩ => ⟨S100000, .i32⟩
  | .hbm, ⟨80, _⟩ => ⟨S100000, .i32⟩
  | .hbm, ⟨81, _⟩ => ⟨S100000x1, .i32⟩
  | .hbm, ⟨82, _⟩ => ⟨S100000x1000, .f32⟩
  | .hbm, ⟨83, _⟩ => ⟨S_, .f32⟩
  | .hbm, ⟨84, _⟩ => ⟨S2048x1000, .f32⟩
  | .hbm, ⟨85, _⟩ => ⟨S100000x1, .i32⟩
  | .hbm, ⟨86, _⟩ => ⟨S2048x1000, .f32⟩
  | .hbm, ⟨87, _⟩ => ⟨S2048, .f32⟩
  | .hbm, ⟨88, _⟩ => ⟨S2048x1, .f32⟩
  | .hbm, ⟨89, _⟩ => ⟨S2048x1000, .f32⟩
  | .hbm, ⟨90, _⟩ => ⟨S2048x1000, .f32⟩
  | .hbm, ⟨91, _⟩ => ⟨S2048x5000, .f32⟩
  | .hbm, ⟨92, _⟩ => ⟨S1x5000, .f32⟩
  | .hbm, ⟨93, _⟩ => ⟨S2048x5000, .f32⟩
  | .hbm, ⟨94, _⟩ => ⟨S2048x5000, .f32⟩
  | .hbm, ⟨95, _⟩ => ⟨S2048x5000, .f32⟩
  | .hbm, ⟨96, _⟩ => ⟨S2048x5000, .f32⟩
  | .hbm, ⟨97, _⟩ => ⟨S_, .f32⟩
  | .hbm, ⟨98, _⟩ => ⟨S2048x5000, .f32⟩
  | .hbm, ⟨99, _⟩ => ⟨S2048x5000, .f32⟩
  | .hbm, ⟨100, _⟩ => ⟨S_, .f32⟩
  | .hbm, ⟨101, _⟩ => ⟨S2048x5000, .f32⟩
  | .hbm, ⟨102, _⟩ => ⟨S2048x5000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_call2_v0 : Ref sig .tc := ⟨.hbm, 59, rfl⟩
abbrev main_call2_v1 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_call3_v0 : Ref sig .tc := ⟨.hbm, 67, rfl⟩
abbrev main_call3_v1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_c_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S10000 : S_.BroadcastsInDim S10000 (![] : Fin 0 → Fin S10000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S1000_S1x1000_1 : S1000.BroadcastsInDim S1x1000 (![1] : Fin 1 → Fin S1x1000.rank)
  bcast_S1x1000_S10000x1000_0_1 : S1x1000.BroadcastsInDim S10000x1000 (![0, 1] : Fin 2 → Fin S10000x1000.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S2048 : S_.BroadcastsInDim S2048 (![] : Fin 0 → Fin S2048.rank)
  bcast_S10000x1_S10000x1000_0_1 : S10000x1.BroadcastsInDim S10000x1000 (![0, 1] : Fin 2 → Fin S10000x1000.rank)
  bcast_S_S2048x1000 : S_.BroadcastsInDim S2048x1000 (![] : Fin 0 → Fin S2048x1000.rank)
  bcast_S2048_S2048x1_0 : S2048.BroadcastsInDim S2048x1 (![0] : Fin 1 → Fin S2048x1.rank)
  bcast_S2048x1_S2048x1000_0_1 : S2048x1.BroadcastsInDim S2048x1000 (![0, 1] : Fin 2 → Fin S2048x1000.rank)
  bcast_S5000_S1x5000_1 : S5000.BroadcastsInDim S1x5000 (![1] : Fin 1 → Fin S1x5000.rank)
  bcast_S1x5000_S2048x5000_0_1 : S1x5000.BroadcastsInDim S2048x5000 (![0, 1] : Fin 2 → Fin S2048x5000.rank)
  bcast_S_S2048x5000 : S_.BroadcastsInDim S2048x5000 (![] : Fin 0 → Fin S2048x5000.rank)
  scatter_S50000_S500000x1_S500000_n_0_0_1_wf : ScatterDims.WF S50000 S500000x1 S500000 [] [0] [0] 1
  scatter_S10000_S500000x1_S500000_n_0_0_1_wf : ScatterDims.WF S10000 S500000x1 S500000 [] [0] [0] 1
  gather_S50000x256_S500000x1_S500000x256_1_0_n_n_0_1_1256_wf : GatherDims.WF S50000x256 S500000x1 S500000x256 [1] [0] [] [0] [] 1 ![1, 256]
  scatter_S10000x256_S500000x1_S500000x256_1_0_0_1_wf : ScatterDims.WF S10000x256 S500000x1 S500000x256 [1] [0] [0] 1
  dot_S10000x256_S256x1000_S10000x1000_1_0_0_1_n_n_wf : DotDims.WF S10000x256 S256x1000 S10000x1000 [1] [0] [0] [1] [] []
  scatter_S10000_S100000x1_S100000_n_0_0_1_wf : ScatterDims.WF S10000 S100000x1 S100000 [] [0] [0] 1
  scatter_S2048_S100000x1_S100000_n_0_0_1_wf : ScatterDims.WF S2048 S100000x1 S100000 [] [0] [0] 1
  gather_S10000x1000_S100000x1_S100000x1000_1_0_n_n_0_1_11000_wf : GatherDims.WF S10000x1000 S100000x1 S100000x1000 [1] [0] [] [0] [] 1 ![1, 1000]
  scatter_S2048x1000_S100000x1_S100000x1000_1_0_0_1_wf : ScatterDims.WF S2048x1000 S100000x1 S100000x1000 [1] [0] [0] 1
  dot_S2048x1000_S1000x5000_S2048x5000_1_0_0_1_n_n_wf : DotDims.WF S2048x1000 S1000x5000 S2048x5000 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S10000x256_S500000x1_S500000x256_1_0_0_1 : ScatterDims S10000x256 S500000x1 S500000x256 where
  updateWindowDims := [1]
  insertedWindowDims := [0]
  scatterDimsToOperandDims := [0]
  indexVectorDim := 1
  wf := scatter_S10000x256_S500000x1_S500000x256_1_0_0_1_wf
def dot_S10000x256_S256x1000_S10000x1000_1_0_0_1_n_n : DotDims S10000x256 S256x1000 S10000x1000 where
  lhsContracting := [1]
  rhsContracting := [0]
  lhsNonContracting := [0]
  rhsNonContracting := [1]
  lhsBatch := []
  rhsBatch := []
  wf := dot_S10000x256_S256x1000_S10000x1000_1_0_0_1_n_n_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def gather_S10000x1000_S100000x1_S100000x1000_1_0_n_n_0_1_11000 : GatherDims S10000x1000 S100000x1 S100000x1000 where
  offsetDims := [1]
  collapsedSliceDims := [0]
  operandBatchingDims := []
  startIndicesBatchingDims := []
  startIndexMap := [0]
  indexVectorDim := 1
  sliceSizes := ![1, 1000]
  wf := gather_S10000x1000_S100000x1_S100000x1000_1_0_n_n_0_1_11000_wf
def scatter_S2048x1000_S100000x1_S100000x1000_1_0_0_1 : ScatterDims S2048x1000 S100000x1 S100000x1000 where
  updateWindowDims := [1]
  insertedWindowDims := [0]
  scatterDimsToOperandDims := [0]
  indexVectorDim := 1
  wf := scatter_S2048x1000_S100000x1_S100000x1000_1_0_0_1_wf
def dot_S2048x1000_S1000x5000_S2048x5000_1_0_0_1_n_n : DotDims S2048x1000 S1000x5000 S2048x5000 where
  lhsContracting := [1]
  rhsContracting := [0]
  lhsNonContracting := [0]
  rhsNonContracting := [1]
  lhsBatch := []
  rhsBatch := []
  wf := dot_S2048x1000_S1000x5000_S2048x5000_1_0_0_1_n_n_wf

class Facts : Prop extends Facts₀ where

variable [Facts]
-- ==== Proof.KernelRun.lean ====
/-
  The kernel program's run, with its result named.

  The program is a chain of host stretches and two kernel regions.  The buffer contents at every boundary of that chain
  are a fold from the launch memory: a host stretch applies its operations, a region replaces its output array by what
  its write-backs leave.  Every weakly fair execution ends with each unscoped buffer at the last boundary's contents; here
  that is read at the result buffer as well as at the nine argument buffers, which end as launched.
-/
import proofs.«156711_j13134009991724_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents (the slice of what the second region leaves in its output array) and the arguments end
    as launched. -/
theorem run_result : θ_run defs (onTc (τ := τ) (main (F := F))) ⟨m, fun _ => 0, ρ⟩ (fun r => ∀ c : Dev nD,
      r.2.mem ((c.tc : Thread nD τ).loc main_v61) = W23 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v61 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c)⟩)

end Cert.KernelIdeal.RunValue

end
-- ==== Proof.LibTRefCasts.lean ====
/-
  Typed references and their transports. A module-local function's operations name their buffers as typed references
  (`TRef`): a buffer together with the equation saying its declared type is the value's type, and every operand and result
  passes through the transport along that equation (`ofBuf` going in, `toBuf` coming out). The two transports are inverse
  to each other, for any typed reference whatever: destructure the reference and substitute the equation, and both are
  the identity. Rewriting with these removes every paired transport from a composed term without computing anything.
-/
import Idealize.ShloMosaic.Lib.StableHlo

namespace Cert.Lib

open Idealize.ShloMosaic Idealize.ShloMosaic.StableHlo

/-- Contents carried into a buffer's type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents carried out of a buffer's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Cert.Lib
-- ==== Proof.LibPadRead.lean ====
/-
  A zero-padded array read at its coordinates.

  A matrix or a vector padded at the HIGH end of one axis (no low padding, no interior padding) — what padding a table
  out to a whole number of tiles lowers to — reads the operand at the same coordinates where the padded coordinate is
  still inside the operand, and the padding value beyond it.  With them: the padding value "integer 0 converted to a
  float" is the extended real 0, and a sum over a padded range whose padding terms vanish is the sum over the range.
-/
import Idealize.ShloMosaic.PureOps
import Idealize.ShloMosaic.Lib.ValueIdx
import Idealize.ShloMosaic.Lib.KernelVsHost

noncomputable section

open scoped BigOperators

namespace Cert.Lib

open Idealize.ShloMosaic Idealize.ShloMosaic.ValueIdx

variable {α : Type}

/-- A MATRIX PADDED ON THE RIGHT read at `(p, q)`: a matrix `[A, C]` padded with `hc` more columns to `[A, C']` is the
    matrix at `(p, q)` when column `q` is one of its own (`q < C`), and the padding value otherwise. -/
theorem pad_high_cols_apply {A C C' hc : Nat} (x : (⟨2, ![A, C]⟩ : Shape).Idx → α) {u : Shape} (v : u.Idx → α)
    (h : (⟨2, ![A, C]⟩ : Shape).Pads ![0, 0] ![0, hc] ![0, 0] ⟨2, ![A, C']⟩) (hu : 0 < u.numel)
    (p : Fin A) (q : Fin C') :
    pad ⟨2, ![A, C']⟩ ![0, 0] ![0, hc] ![0, 0] x v h hu (ix2 p q)
      = if hq : q.val < C then x (ix2 p ⟨q.val, hq⟩) else v (Shape.Idx.first hu) := by
  by_cases hq : q.val < C
  · rw [dif_pos hq]
    refine pad_apply_of_inside _ _ _ x v h hu (ix2 p q) (ix2 p ⟨q.val, hq⟩) fun a => ?_
    match a with
    | ⟨0, _⟩ => show p.val = 0 + p.val * (0 + 1); omega
    | ⟨1, _⟩ => show q.val = 0 + q.val * (0 + 1); omega
  · rw [dif_neg hq]
    refine pad_apply_of_not_inside _ _ _ x v h hu (ix2 p q) (1 : Fin 2) ?_
    show ¬(0 ≤ q.val ∧ (q.val - 0) % (0 + 1) = 0 ∧ (q.val - 0) / (0 + 1) < C)
    rintro ⟨_, _, h3⟩
    rw [Nat.zero_add, Nat.div_one, Nat.sub_zero] at h3
    exact hq h3

/-- A MATRIX PADDED AT THE BOTTOM read at `(p, q)`: a matrix `[A, C]` padded with `hr` more rows to `[A', C]` is the
    matrix at `(p, q)` when row `p` is one of its own (`p < A`), and the padding value otherwise. -/
theorem pad_high_rows_apply {A A' C hr : Nat} (x : (⟨2, ![A, C]⟩ : Shape).Idx → α) {u : Shape} (v : u.Idx → α)
    (h : (⟨2, ![A, C]⟩ : Shape).Pads ![0, 0] ![hr, 0] ![0, 0] ⟨2, ![A', C]⟩) (hu : 0 < u.numel)
    (p : Fin A') (q : Fin C) :
    pad ⟨2, ![A', C]⟩ ![0, 0] ![hr, 0] ![0, 0] x v h hu (ix2 p q)
      = if hp : p.val < A then x (ix2 ⟨p.val, hp⟩ q) else v (Shape.Idx.first hu) := by
  by_cases hp : p.val < A
  · rw [dif_pos hp]
    refine pad_apply_of_inside _ _ _ x v h hu (ix2 p q) (ix2 ⟨p.val, hp⟩ q) fun a => ?_
    match a with
    | ⟨0, _⟩ => show p.val = 0 + p.val * (0 + 1); omega
    | ⟨1, _⟩ => show q.val = 0 + q.val * (0 + 1); omega
  · rw [dif_neg hp]
    refine pad_apply_of_not_inside _ _ _ x v h hu (ix2 p q) (0 : Fin 2) ?_
    show ¬(0 ≤ p.val ∧ (p.val - 0) % (0 + 1) = 0 ∧ (p.val - 0) / (0 + 1) < A)
    rintro ⟨_, _, h3⟩
    rw [Nat.zero_add, Nat.div_one, Nat.sub_zero] at h3
    exact hp h3

/-- A VECTOR PADDED AT ITS END read at `q`: a vector `[C]` padded with `hc` more entries to `[C']` is the vector at
    `q` when entry `q` is one of its own (`q < C`), and the padding value otherwise. -/
theorem pad_high_vec_apply {C C' hc : Nat} (x : (⟨1, ![C]⟩ : Shape).Idx → α) {u : Shape} (v : u.Idx → α)
    (h : (⟨1, ![C]⟩ : Shape).Pads ![0] ![hc] ![0] ⟨1, ![C']⟩) (hu : 0 < u.numel) (q : Fin C') :
    pad ⟨1, ![C']⟩ ![0] ![hc] ![0] x v h hu (ix1 q)
      = if hq : q.val < C then x (ix1 ⟨q.val, hq⟩) else v (Shape.Idx.first hu) := by
  by_cases hq : q.val < C
  · rw [dif_pos hq]
    refine pad_apply_of_inside _ _ _ x v h hu (ix1 q) (ix1 ⟨q.val, hq⟩) fun a => ?_
    match a with
    | ⟨0, _⟩ => show q.val = 0 + q.val * (0 + 1); omega
  · rw [dif_neg hq]
    refine pad_apply_of_not_inside _ _ _ x v h hu (ix1 q) (0 : Fin 1) ?_
    show ¬(0 ≤ q.val ∧ (q.val - 0) % (0 + 1) = 0 ∧ (q.val - 0) / (0 + 1) < C)
    rintro ⟨_, _, h3⟩
    rw [Nat.zero_add, Nat.div_one, Nat.sub_zero] at h3
    exact hq h3

/-- The integer constant 0 converted to a float is, over the extended reals, the number 0 — at every index of any
    shape, at every width and format. -/
theorem sitofp_zero_apply {s : Shape} {φ : FTy} {w : Nat} (i : s.Idx) :
    sitofp (F := Ideal) φ (constantI s w 0#w) i = (0 : EReal) := by
  show (((0#w).toInt : ℝ) : EReal) = 0
  rw [BitVec.toInt_zero, Int.cast_zero, EReal.coe_zero]

/-- A sum over `a + b` terms whose last `b` vanish is the sum of the first `a`. -/
theorem sum_drop_padding {M : Type*} [AddCommMonoid M] (a b : ℕ) (f : Fin (a + b) → M)
    (hz : ∀ j : Fin b, f (Fin.natAdd a j) = 0) :
    ∑ k : Fin (a + b), f k = ∑ k : Fin a, f (Fin.castAdd b k) := by
  rw [Fin.sum_univ_add, Finset.sum_eq_zero (fun j _ => hz j), add_zero]

end Cert.Lib

end
-- ==== Proof.HostStages0.lean ====
/-
  The kernel program's buffers on entering its first kernel region, as functions of the arguments.

  Before the first region the host computes, exactly as the reference does, the layer-1 aggregate (the rows of
  x / sqrt(out-degree) gathered along the edges and summed into their destination rows) and the column of
  1 / sqrt(in-degree); these are the same compositions of the same operations, so they are carried as the reference's
  own stage functions and never opened.  It also pads the weight matrix with 24 zero columns and the bias with 24 zero
  entries; read at an index, a padded array is the original inside and zero outside.
-/
import proofs.«156711_j13134009991724_2_alg».proof.Proof.Gen.KernelIdeal.Frame
import proofs.«156711_j13134009991724_2_alg».proof.Proof.Gen.ReferenceIdeal.Read
import proofs.«156711_j13134009991724_2_alg».proof.Proof.LibTRefCasts
import proofs.«156711_j13134009991724_2_alg».proof.Proof.LibPadRead
import Idealize.ShloMosaic.Lib.ValueIdx
import Idealize.ShloMosaic.Lib.ValueLayout
import Idealize.ShloMosaic.Lib.Pipeline.Value

set_option maxRecDepth 16384

noncomputable section
namespace Cert.KernelIdeal.HostStages
open Cert.KernelIdeal Cert.KernelIdeal.Gen
open Idealize.ShloMosaic Idealize.ShloMosaic.TcCoe Idealize.SL.Sem Idealize.ShloMosaic.StableHlo Idealize.ShloMosaic.ValueIdx

/-! The two programs print the same dimension numbers for the operations they share. -/
theorem dims_deg_out0 : Cert.KernelIdeal.scatter_S50000_S500000x1_S500000_n_0_0_1 = Cert.ReferenceIdeal.scatter_S50000_S500000x1_S500000_n_0_0_1 := rfl
theorem dims_deg_in0 : Cert.KernelIdeal.scatter_S10000_S500000x1_S500000_n_0_0_1 = Cert.ReferenceIdeal.scatter_S10000_S500000x1_S500000_n_0_0_1 := rfl
theorem dims_gather0 : Cert.KernelIdeal.gather_S50000x256_S500000x1_S500000x256_1_0_n_n_0_1_1256 = Cert.ReferenceIdeal.gather_S50000x256_S500000x1_S500000x256_1_0_n_n_0_1_1256 := rfl
theorem dims_agg0 : Cert.KernelIdeal.scatter_S10000x256_S500000x1_S500000x256_1_0_0_1 = Cert.ReferenceIdeal.scatter_S10000x256_S500000x1_S500000x256_1_0_0_1 := rfl

variable (m : (ℓ : Loc nD τ sig) → Buf (Elt Ideal) ℓ) (ρ : Dev nD → PrngReg)

/-! The launch contents at an argument's buffer are the argument. -/
theorem launch_arg0 (c : Dev nD) : W0 (F := Ideal) m ρ c (Proc.devRef .tc main_arg0) = m ((c : Thread nD τ).loc main_arg0) := rfl
theorem launch_arg1 (c : Dev nD) : W0 (F := Ideal) m ρ c (Proc.devRef .tc main_arg1) = m ((c : Thread nD τ).loc main_arg1) := rfl
theorem launch_arg2 (c : Dev nD) : W0 (F := Ideal) m ρ c (Proc.devRef .tc main_arg2) = m ((c : Thread nD τ).loc main_arg2) := rfl
theorem launch_arg5 (c : Dev nD) : W0 (F := Ideal) m ρ c (Proc.devRef .tc main_arg5) = m ((c : Thread nD τ).loc main_arg5) := rfl
theorem launch_arg6 (c : Dev nD) : W0 (F := Ideal) m ρ c (Proc.devRef .tc main_arg6) = m ((c : Thread nD τ).loc main_arg6) := rfl

/-- The column of 1 / sqrt(in-degree of layer 1's destination nodes) is the reference's. -/
theorem entry0_rdeg (c : Dev nD) : V9 (F := Ideal) m ρ c main_v24 = Cert.ReferenceIdeal.Read.val_main_v24 (F := Ideal) (m ((c : Thread nD τ).loc main_arg6)) := by
  show W9 (F := Ideal) m ρ c (Proc.devRef .tc main_v24) = _
  dsimp only [W9, W8, W7, W6, W5, W4, W3, W2, W1]
  after_results_simp
  rw [launch_arg6 m ρ c]
  simp only [Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_call0_v0, Cert.ReferenceIdeal.Read.val_main_call0_v1, Cert.ReferenceIdeal.Read.val_main_call1_v0, Cert.ReferenceIdeal.Read.val_main_call1_v1, Cert.ReferenceIdeal.Read.val_main_cst, Cert.ReferenceIdeal.Read.val_main_cst_0, Cert.ReferenceIdeal.Read.val_main_cst_1, Cert.ReferenceIdeal.Read.val_main_cst_2, Cert.ReferenceIdeal.Read.val_main_cst_3, Cert.ReferenceIdeal.Read.val_main_cst_5, Cert.ReferenceIdeal.Read.val_main_c, Cert.ReferenceIdeal.Read.val_main_c_4]
  simp only [Cert.Lib.ofBuf_toBuf, Cert.Lib.toBuf_ofBuf, id, dims_deg_out0, dims_deg_in0, dims_gather0, dims_agg0]
  simp only [TRef.toBuf, TRef.ofBuf, cast_eq]

/-- The layer-1 aggregate (source-normalised rows summed into their destination rows) is the reference's. -/
theorem entry0_agg (c : Dev nD) : V9 (F := Ideal) m ρ c main_v22 = Cert.ReferenceIdeal.Read.val_main_v22 (F := Ideal) (m ((c : Thread nD τ).loc main_arg0)) (m ((c : Thread nD τ).loc main_arg5)) (m ((c : Thread nD τ).loc main_arg6)) := by
  show W9 (F := Ideal) m ρ c (Proc.devRef .tc main_v22) = _
  dsimp only [W9, W8, W7, W6, W5, W4, W3, W2, W1]
  after_results_simp
  rw [launch_arg0 m ρ c, launch_arg5 m ρ c, launch_arg6 m ρ c]
  simp only [Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_call0_v0, Cert.ReferenceIdeal.Read.val_main_call0_v1, Cert.ReferenceIdeal.Read.val_main_call1_v0, Cert.ReferenceIdeal.Read.val_main_call1_v1, Cert.ReferenceIdeal.Read.val_main_cst, Cert.ReferenceIdeal.Read.val_main_cst_0, Cert.ReferenceIdeal.Read.val_main_cst_1, Cert.ReferenceIdeal.Read.val_main_cst_2, Cert.ReferenceIdeal.Read.val_main_cst_3, Cert.ReferenceIdeal.Read.val_main_cst_5, Cert.ReferenceIdeal.Read.val_main_c, Cert.ReferenceIdeal.Read.val_main_c_4]
  simp only [Cert.Lib.ofBuf_toBuf, Cert.Lib.toBuf_ofBuf, id, dims_deg_out0, dims_deg_in0, dims_gather0, dims_agg0]
  simp only [TRef.toBuf, TRef.ofBuf, cast_eq]

/-- The padded layer-1 weight at row k, column q: the weight for q < 1000, zero in the 24 added columns. -/
theorem entry0_weight (c : Dev nD) (k : Fin 256) (q : Fin 1024) :
    V9 (F := Ideal) m ρ c main_v28 (ix2 k q)
      = if hq : q.val < 1000 then m ((c : Thread nD τ).loc main_arg1) (ix2 k ⟨q.val, hq⟩) else (0 : EReal) := by
  have e : V9 (F := Ideal) m ρ c main_v28
      = truncf .bf16 (pad S256x1024 ![0, 0] ![0, 24] ![0, 0] (m ((c : Thread nD τ).loc main_arg1))
          (sitofp (F := Ideal) .f32 (constantI S_ 32 0#32)) pads_S256x1000_S256x1024_000_0240 h_S_) bitsLt_bf16_f32 := by
    show W9 (F := Ideal) m ρ c (Proc.devRef .tc main_v28) = _
    dsimp only [W9, W8, W7, W6, W5, W4, W3, W2, W1]
    after_results_simp
    rw [launch_arg1 m ρ c]
    simp only [Cert.Lib.ofBuf_toBuf, Cert.Lib.toBuf_ofBuf]
    simp only [TRef.toBuf, TRef.ofBuf, cast_eq]
  rw [e, truncf_apply, Cert.Lib.pad_high_cols_apply, Cert.Lib.sitofp_zero_apply]

/-- The padded layer-1 bias as a row, at column q: the bias for q < 1000, zero in the 24 added entries. -/
theorem entry0_bias (c : Dev nD) (q : Fin 1024) :
    V9 (F := Ideal) m ρ c main_v27 (ix2 (0 : Fin 1) q)
      = if hq : q.val < 1000 then m ((c : Thread nD τ).loc main_arg2) (ix1 ⟨q.val, hq⟩) else (0 : EReal) := by
  have e : V9 (F := Ideal) m ρ c main_v27
      = shapeCast S1x1024 (pad S1024 ![0] ![24] ![0] (m ((c : Thread nD τ).loc main_arg2))
          (sitofp (F := Ideal) .f32 (constantI S_ 32 0#32)) pads_S1000_S1024_0240 h_S_) shapeCasts_S1024_S1x1024 := by
    show W9 (F := Ideal) m ρ c (Proc.devRef .tc main_v27) = _
    dsimp only [W9, W8, W7, W6, W5, W4, W3, W2, W1]
    after_results_simp
    rw [launch_arg2 m ρ c]
    simp only [Cert.Lib.ofBuf_toBuf, Cert.Lib.toBuf_ofBuf]
    simp only [TRef.toBuf, TRef.ofBuf, cast_eq]
    rfl
  rw [e, shapeCast_a_1a_apply, Cert.Lib.pad_high_vec_apply, Cert.Lib.sitofp_zero_apply]

end Cert.KernelIdeal.HostStages
end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region1Value.lean ====
/-
  The second kernel region's output array, as one formula of the arrays the region reads.

  The region's grid has ten points.  Point t works on columns 512·t … 512·t + 511: it reads all of the activation a and
  of the per-row scale r, those columns of the weight w and of the bias row b, and writes those columns of the output.
  The body computes, for a row p and a column q of the block,
      logistic((∑ k, (a(p, k) · r(p, 0)) · w(k, q)) + b(0, q)):
  the scaled rows change float format before the product, which is the identity over the extended reals, and the
  product accumulates into zero.  The ten column blocks tile the output, so after the region the array holds this
  formula at every index.
-/
import proofs.«156711_j13134009991724_2_alg».proof.Proof.Gen.KernelIdeal.Frame
import proofs.«156711_j13134009991724_2_alg».proof.Proof.LibPlainDot
import proofs.«156711_j13134009991724_2_alg».proof.Proof.LibKeepdims
import Idealize.ShloMosaic.Lib.Pipeline.Value
import Idealize.ShloMosaic.Lib.ValueIdx
import Idealize.ShloMosaic.Lib.ValueLayout
import Idealize.ShloMosaic.PureOps.Ideal

noncomputable section

namespace Cert.KernelIdeal.RegionValue

open Cert.KernelIdeal Cert.KernelIdeal.Gen
open Idealize.ShloMosaic Idealize.ShloMosaic.TcCoe Idealize.ShloMosaic.ValueIdx
open Idealize.SL.Sem
open Idealize.ShloMosaic.Pipeline (Dat)

/-- The region's result: row i₀ of the activation scaled by that row's factor, times the weight, plus the bias row,
    through the logistic function. -/
def layer2 (a : S2048x1024.Idx → EReal) (r : S2048x1.Idx → EReal) (w : S1024x5120.Idx → EReal) (b : S1x5120.Idx → EReal) :
    S2048x5120.Idx → EReal :=
  fun i => Ideal.logistic ((∑ k : Fin 1024, (a (ix2 (i 0) k) * r (ix2 (i 0) 0)) * w (ix2 k (i 1))) + b (ix2 0 (i 1)))

/-- The body's arithmetic on one block, read at row p and column q: the column of scales is broadcast along the
    rows' lanes, the change of float format is the identity, the product into a zero accumulator is the plain sum over
    the contracted axis, the bias row is broadcast down the rows, and the logistic function acts entry by entry. -/
theorem layer2_payload (x0 : Vec Ideal S2048x1024 .f32) (x1 : Vec Ideal S2048x1 .f32) (x2 : Vec Ideal S1024x512 .bf16)
    (x3 : Vec Ideal S1x512 .f32) (p : Fin 2048) (q : Fin 512) :
    k1_pay1 (F := Ideal) x0 x1 x2 x3 (ix2 p q)
      = Ideal.logistic ((∑ k : Fin 1024, (x0 (ix2 p k) * x1 (ix2 p 0)) * x2 (ix2 k q)) + x3 (ix2 0 q)) := by
  unfold k1_pay1
  simp only [shapeCast_self]
  refine congrArg Ideal.logistic ?_
  refine (addf_apply _ _ _).trans ?_
  rw [broadcastTo_1b_ab_apply]
  refine congrArg (· + x3 (ix2 0 q)) ?_
  refine (Cert.Lib.matmul_plain_zero_apply (M := 2048) (K := 1024) (N := 512) (φ₁ := .bf16) (φ₂ := .bf16) none _ _ p q).trans ?_
  refine Finset.sum_congr rfl fun k _ => ?_
  refine congrArg (· * x2 (ix2 k q)) ?_
  show x0 (ix2 p k) * broadcastTo S2048x1024 x1 broadcasts_S2048x1_S2048x1024 (ix2 p k) = _
  rw [Cert.LibKeepdims.broadcastTo_a1_ab_apply]

/-- The body's arithmetic on one block is the region's formula at the array index i, once each block entry the
    formula reads is the array entry it names. -/
theorem layer2_at (a : S2048x1024.Idx → EReal) (r : S2048x1.Idx → EReal) (w : S1024x5120.Idx → EReal) (b : S1x5120.Idx → EReal)
    (x0 : Vec Ideal S2048x1024 .f32) (x1 : Vec Ideal S2048x1 .f32) (x2 : Vec Ideal S1024x512 .bf16) (x3 : Vec Ideal S1x512 .f32)
    (j : S2048x512.Idx) (i : S2048x5120.Idx) (p : Fin 2048) (q : Fin 512) (hj : j = ix2 p q)
    (h0 : ∀ k : Fin 1024, x0 (ix2 p k) = a (ix2 (i 0) k)) (h1 : x1 (ix2 p 0) = r (ix2 (i 0) 0))
    (h2 : ∀ k : Fin 1024, x2 (ix2 k q) = w (ix2 k (i 1))) (h3 : x3 (ix2 0 q) = b (ix2 0 (i 1))) :
    k1_pay1 (F := Ideal) x0 x1 x2 x3 j = layer2 a r w b i := by
  subst hj
  rw [layer2_payload]
  unfold layer2
  simp only [h0, h1, h2, h3]

/-- The two zero offsets of a load or store of a whole block, as the constant function. -/
theorem zero_offsets1 : (![0, 0] : Fin 2 → Nat) = fun _ => 0 := funext fun a => by fin_cases a <;> rfl

/-- The index maps over the ten grid points: the weight, the bias row and the output move right one column block per
    point; the activation and the scale column stay. -/
theorem index_maps1 : ∀ t : Fin cfg1.N, t.val < 10
    ∧ win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

/-- Every column block is some point's. -/
theorem index_onto1 : ∀ n : Fin 10, ∃ t : Fin cfg1.N, win1_4.index t (1 : Fin 2) = n.val :=
  (by decide +kernel : ∀ n : Fin 10, ∃ t : Fin grid1.N, win1_4.index t (1 : Fin 2) = n.val)

variable (V : (c : Dev nD) → (b : Ref sig .tc) → Buf (Elt Ideal) ((c : Thread nD τ).loc b))

/-- The activation's block at every point is the whole activation. -/
theorem block1_act (c : Dev nD) (t : Fin cfg1.N) (x : S2048x1024.Idx) :
    (iblk1 (F := Ideal) V c 0 t : Vec Ideal S2048x1024 .f32) x = (V c main_v52 : S2048x1024.Idx → EReal) x := by
  obtain ⟨-, e0, e1, -⟩ := index_maps1 t
  unfold iblk1
  rw [View.read_apply]
  show V c main_v52 _ = V c main_v52 _
  congr 1
  funext a
  apply Fin.ext
  match a with
  | ⟨0, _⟩ => show win1_0.index t 0 * 2048 + 1 * (x 0).val = (x 0).val; rw [e0]; omega
  | ⟨1, _⟩ => show win1_0.index t 1 * 1024 + 1 * (x 1).val = (x 1).val; rw [e1]; omega

/-- The scale column's block at every point is the whole column. -/
theorem block1_scale (c : Dev nD) (t : Fin cfg1.N) (x : S2048x1.Idx) :
    (iblk1 (F := Ideal) V c 1 t : Vec Ideal S2048x1 .f32) x = (V c main_v54 : S2048x1.Idx → EReal) x := by
  obtain ⟨-, -, -, e0, e1, -⟩ := index_maps1 t
  unfold iblk1
  rw [View.read_apply]
  show V c main_v54 _ = V c main_v54 _
  congr 1
  funext a
  apply Fin.ext
  match a with
  | ⟨0, _⟩ => show win1_1.index t 0 * 2048 + 1 * (x 0).val = (x 0).val; rw [e0]; omega
  | ⟨1, _⟩ => show win1_1.index t 1 * 1 + 1 * (x 1).val = (x 1).val; rw [e1]; omega

/-- The weight's block at point t holds columns 512·t … of the array. -/
theorem block1_weight (c : Dev nD) (t : Fin cfg1.N) (x : S1024x512.Idx) (i : S1024x5120.Idx)
    (h0 : (i 0).val = (x 0).val) (h1 : (i 1).val = t.val * 512 + (x 1).val) :
    (iblk1 (F := Ideal) V c 2 t : Vec Ideal S1024x512 .bf16) x = (V c main_v59 : S1024x5120.Idx → EReal) i := by
  obtain ⟨-, -, -, -, -, e0, e1, -⟩ := index_maps1 t
  unfold iblk1
  rw [View.read_apply]
  show V c main_v59 _ = V c main_v59 _
  congr 1
  funext a
  apply Fin.ext
  match a with
  | ⟨0, _⟩ => show win1_2.index t 0 * 1024 + 1 * (x 0).val = (i 0).val; rw [e0, h0]; omega
  | ⟨1, _⟩ => show win1_2.index t 1 * 512 + 1 * (x 1).val = (i 1).val; rw [e1, h1]; omega

/-- The bias row's block at point t holds columns 512·t … of the row. -/
theorem block1_bias (c : Dev nD) (t : Fin cfg1.N) (x : S1x512.Idx) (i : S1x5120.Idx)
    (h0 : (i 0).val = (x 0).val) (h1 : (i 1).val = t.val * 512 + (x 1).val) :
    (iblk1 (F := Ideal) V c 3 t : Vec Ideal S1x512 .f32) x = (V c main_v58 : S1x5120.Idx → EReal) i := by
  obtain ⟨-, -, -, -, -, -, -, e0, e1, -⟩ := index_maps1 t
  unfold iblk1
  rw [View.read_apply]
  show V c main_v58 _ = V c main_v58 _
  congr 1
  funext a
  apply Fin.ext
  match a with
  | ⟨0, _⟩ => show win1_3.index t 0 * 1 + 1 * (x 0).val = (i 0).val; rw [e0, h0]; omega
  | ⟨1, _⟩ => show win1_3.index t 1 * 512 + 1 * (x 1).val = (i 1).val; rw [e1, h1]; omega

/-- What point t writes back is its column block of the region's formula of the arrays as the region finds them. -/
theorem region1_block (c : Dev nD) (t : Fin cfg1.N) :
    (dat1 (F := Ideal) V c).flushed 4 t
      = ((cfg1.win 4).blk t).view.read (Elt Ideal) (layer2 (V c main_v52) (V c main_v54) (V c main_v59) (V c main_v58)) := by
  show (cfg1.win 4).cut (grid1.coords t) ((dat1 V c).after 4 t) = _
  rw [after1_4]
  unfold out1_4
  rw [View.canon_unit_zero zero_offsets1]
  simp only [View.ld_unit_zero (S := S2048x1024) zero_offsets1, View.ld_unit_zero (S := S2048x1) zero_offsets1,
    View.ld_unit_zero (S := S1024x512) zero_offsets1, View.ld_unit_zero (S := S1x512) zero_offsets1]
  obtain ⟨-, -, -, -, -, -, -, -, -, e0, e1⟩ := index_maps1 t
  funext j
  have hp : (j 0).val < 2048 := (j 0).isLt
  have hq : (j 1).val < 512 := (j 1).isLt
  have i0 : ((((cfg1.win 4).blk t).view.emb j) 0).val = (j 0).val := by
    show win1_4.index t 0 * 2048 + 1 * (j 0).val = _; rw [e0]; omega
  have i1 : ((((cfg1.win 4).blk t).view.emb j) 1).val = t.val * 512 + (j 1).val := by
    show win1_4.index t 1 * 512 + 1 * (j 1).val = _; rw [e1]; omega
  show k1_pay1 (F := Ideal) (iblk1 V c 0 t) (iblk1 V c 1 t) (iblk1 V c 2 t) (iblk1 V c 3 t) j
      = layer2 (V c main_v52) (V c main_v54) (V c main_v59) (V c main_v58) (((cfg1.win 4).blk t).view.emb j)
  refine layer2_at (V c main_v52) (V c main_v54) (V c main_v59) (V c main_v58)
    (iblk1 V c 0 t) (iblk1 V c 1 t) (iblk1 V c 2 t) (iblk1 V c 3 t) j (((cfg1.win 4).blk t).view.emb j) ⟨(j 0).val, hp⟩ ⟨(j 1).val, hq⟩
    (eq_ix2 j) (fun k => ?_) ?_ (fun k => ?_) ?_
  · refine (block1_act V c t _).trans (congrArg (V c main_v52 : S2048x1024.Idx → EReal) ?_)
    funext a; apply Fin.ext
    match a with
    | ⟨0, _⟩ => exact i0.symm
    | ⟨1, _⟩ => rfl
  · refine (block1_scale V c t _).trans (congrArg (V c main_v54 : S2048x1.Idx → EReal) ?_)
    funext a; apply Fin.ext
    match a with
    | ⟨0, _⟩ => exact i0.symm
    | ⟨1, _⟩ => rfl
  · exact block1_weight V c t _ _ rfl i1
  · exact block1_bias V c t _ _ rfl i1

/-- An index of the output array is in point t's block iff each coordinate is in the block's range on its axis. -/
theorem mem_block1 (t : Fin cfg1.N) (i : S2048x5120.Idx) :
    i ∈ ((cfg1.win 4).blk t).view.set ↔ ∀ a : Fin 2, win1_4.index t a * S2048x512.size a ≤ (i a).val
      ∧ (i a).val < win1_4.index t a * S2048x512.size a + S2048x512.size a := by
  show i ∈ ((View.whole main_v60).slice (win1_4.rect t)).set ↔ _
  rw [View.set_slice_whole, Rect.mem_set_unit]
  exact Iff.rfl

/-- The ten column blocks tile the output: column n is in the block of point n / 512. -/
theorem cover1 (i : S2048x5120.Idx) :
    ∃ t : Fin cfg1.N, (cfg1.win 4).flush t = true ∧ i ∈ ((cfg1.win 4).blk t).view.set := by
  have hi0 : (i 0).val < 2048 := (i 0).isLt
  have hi1 : (i 1).val < 5120 := (i 1).isLt
  obtain ⟨t, ht⟩ := index_onto1 ⟨(i 1).val / 512, by omega⟩
  have ht' : win1_4.index t (1 : Fin 2) = (i 1).val / 512 := ht
  obtain ⟨-, -, -, -, -, -, -, -, -, e0, e1⟩ := index_maps1 t
  refine ⟨t, flush1_4 t, ?_⟩
  rw [mem_block1]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 512 ≤ (i 1).val ∧ (i 1).val < win1_4.index t (1 : Fin 2) * 512 + 512; omega

/-- After the region the output array holds the region's formula of the arrays the region found. -/
theorem region1_array (c : Dev nD) :
    (dat1 (F := Ideal) V c).arrAt 4 cfg1.N = layer2 (V c main_v52) (V c main_v54) (V c main_v59) (V c main_v58) :=
  (dat1 (F := Ideal) V c).arrAt_eq_of_cover 4 (layer2 (V c main_v52) (V c main_v54) (V c main_v59) (V c main_v58))
    (fun t _ => region1_block V c t) cover1

end Cert.KernelIdeal.RegionValue
end
-- ==== Proof.LibRowScatter.lean ====
/-
  A scatter-add of whole rows read at an index.

  What a segment sum of a table of rows `upd : [E, C]` by a vector of segment numbers `idx : [E]` into an
  accumulator `x : [R, C]` lowers to: a scatter with an add body, update_window_dims `[1]`, inserted_window_dims
  `[0]`, scatter_dims_to_operand_dims `[0]` and index_vector_dim 1 over the indices as `[E, 1]`.  Update row `e`
  is added to the accumulator`s row `idx[e, 0]` — read as a signed integer and NOT clamped: a row number outside
  `[0, R − 1]` drops the update —, column by column.  So result element `(r, k)` is `x (r, k)` plus the sum, over the
  update rows `e` whose row number is `r`, of `upd (e, k)`.
-/
import Idealize.ShloMosaic.PureOps
import Idealize.ShloMosaic.Lib.ValueIdx

noncomputable section

open scoped BigOperators

namespace Cert.Lib

open Idealize.ShloMosaic Idealize.ShloMosaic.ValueIdx

/-- Those dimension numbers for an operand `[R, C]`, scatter indices `[E, 1]` and updates `[E, C]`. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- An axis of a rank-2 shape is the first or the second. -/
theorem fin2_cases (a : Fin 2) : a = (0 : Fin 2) ∨ a = (1 : Fin 2) := by
  rcases a with ⟨v, hv⟩
  have hv2 : v < 2 := hv
  rcases Nat.lt_or_ge v 1 with h | h
  · left; exact Fin.ext (by show v = 0; omega)
  · right; exact Fin.ext (by show v = 1; omega)

section
variable {R C E w : Nat} (wf : ScatterDims.WF ⟨2, ![R, C]⟩ ⟨2, ![E, 1]⟩ ⟨2, ![E, C]⟩ [1] [0] [0] 1)

/-- On the row axis the window of update `(e, k')` starts at the row number `idx[e, 0]`, read signed. -/
theorem rowScatter_start_zero (idx : IVec ⟨2, ![E, 1]⟩ w) (e : Fin E) (k' : Fin C) :
    (rowScatterDims R C E wf).start (ix2 e k') idx (0 : Fin 2) = (idx (ix2 e 0)).toInt := by
  unfold ScatterDims.start
  rw [dif_pos (show (0 : Fin 2) ∈ (rowScatterDims R C E wf).scatterDimsToOperandDims from
    List.mem_singleton.mpr rfl)]
  have hsi : (rowScatterDims R C E wf).siIdx (ix2 e k')
      ⟨List.idxOf (0 : Fin 2) (rowScatterDims R C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start index does not name, the window starts at 0. -/
theorem rowScatter_start_one (idx : IVec ⟨2, ![E, 1]⟩ w) (j : (⟨2, ![E, C]⟩ : Shape).Idx) :
    (rowScatterDims R C E wf).start j idx (1 : Fin 2) = 0 := by
  unfold ScatterDims.start
  rw [dif_neg (show (1 : Fin 2) ∉ (rowScatterDims R C E wf).scatterDimsToOperandDims from
    fun h => absurd (congrArg Fin.val (List.mem_singleton.mp h)) Nat.one_ne_zero)]

/-- The row axis is an inserted window axis: the window coordinate there is 0. -/
theorem rowScatter_window_zero (j : (⟨2, ![E, C]⟩ : Shape).Idx) :
    (rowScatterDims R C E wf).window j (0 : Fin 2) = 0 := by
  unfold ScatterDims.window
  rw [dif_neg (show (0 : Fin 2) ∉ (rowScatterDims R C E wf).sKept from by
    simp [ScatterDims.sKept, Shape.kept, List.mem_filter])]

/-- On the column axis the window coordinate of update `(e, k')` is its column `k'`. -/
theorem rowScatter_window_one (e : Fin E) (k' : Fin C) :
    (rowScatterDims R C E wf).window (ix2 e k') (1 : Fin 2) = k'.val := by
  unfold ScatterDims.window
  rw [dif_pos (show (1 : Fin 2) ∈ (rowScatterDims R C E wf).sKept from by
    simp [ScatterDims.sKept, Shape.kept, List.mem_filter])]
  rfl

/-- WHERE AN UPDATE LANDS: update `(e, k')` lands at operand element `(r, k)` exactly when its row number
    `idx[e, 0]`, read signed, is `r` and its column is `k`. -/
theorem rowScatter_resultIdx_iff (idx : IVec ⟨2, ![E, 1]⟩ w) (e : Fin E) (k' k : Fin C) (r : Fin R) :
    (rowScatterDims R C E wf).resultIdx? (ix2 e k') idx = some (ix2 r k)
      ↔ (idx (ix2 e 0)).toInt = (r.val : Int) ∧ k' = k := by
  have hr : r.val < R := r.isLt
  have hk' : k'.val < C := k'.isLt
  unfold ScatterDims.resultIdx?
  constructor
  · intro h
    split at h
    · rename_i hin
      have hf := Option.some.inj h
      have h0 := congrArg Fin.val (congrFun hf (0 : Fin 2))
      have h1 := congrArg Fin.val (congrFun hf (1 : Fin 2))
      have hin0 := (hin (0 : Fin 2)).1
      simp only [rowScatter_start_zero, rowScatter_start_one, rowScatter_window_zero,
        rowScatter_window_one] at h0 h1 hin0
      have h0' : ((idx (ix2 e 0)).toInt + ((0 : Nat) : Int)).toNat = r.val := h0
      have h1' : ((0 : Int) + (k'.val : Int)).toNat = k.val := h1
      refine ⟨by omega, Fin.ext (by omega)⟩
    · exact absurd h (by simp)
  · rintro ⟨hrow, rfl⟩
    have hin : ∀ a : Fin 2,
        0 ≤ (rowScatterDims R C E wf).start (ix2 e k') idx a + (rowScatterDims R C E wf).window (ix2 e k') a ∧
        (rowScatterDims R C E wf).start (ix2 e k') idx a + (rowScatterDims R C E wf).window (ix2 e k') a
          < (⟨2, ![R, C]⟩ : Shape).size a := by
      intro a
      rcases fin2_cases a with rfl | rfl
      · rw [rowScatter_start_zero, rowScatter_window_zero, hrow]
        show 0 ≤ (r.val : Int) + ((0 : Nat) : Int) ∧ (r.val : Int) + ((0 : Nat) : Int) < ((R : Nat) : Int)
        omega
      · rw [rowScatter_start_one, rowScatter_window_one]
        show 0 ≤ (0 : Int) + (k'.val : Int) ∧ (0 : Int) + (k'.val : Int) < ((C : Nat) : Int)
        omega
    rw [dif_pos hin]
    congr 1
    funext a
    refine Fin.ext ?_
    rcases fin2_cases a with rfl | rfl
    · show ((rowScatterDims R C E wf).start (ix2 e k') idx 0
          + (rowScatterDims R C E wf).window (ix2 e k') 0).toNat = r.val
      rw [rowScatter_start_zero, rowScatter_window_zero, hrow]
      omega
    · show ((rowScatterDims R C E wf).start (ix2 e k') idx 1
          + (rowScatterDims R C E wf).window (ix2 e k') 1).toNat = k'.val
      rw [rowScatter_start_one, rowScatter_window_one]
      omega

/-- THE ROW SCATTER-ADD READ AT `(r, k)`: the operand there plus the sum, over the update rows whose row number
    `idx[e, 0]` (signed, not clamped) is `r`, of the update's column `k`. -/
theorem scatterAdd_rows_apply (x : (⟨2, ![R, C]⟩ : Shape).Idx → EReal) (idx : IVec ⟨2, ![E, 1]⟩ w)
    (upd : (⟨2, ![E, C]⟩ : Shape).Idx → EReal) (r : Fin R) (k : Fin C) :
    Ideal.hostScatterAdd (rowScatterDims R C E wf) x idx upd (ix2 r k)
      = x (ix2 r k) + ∑ e : Fin E, if (idx (ix2 e 0)).toInt = (r.val : Int) then upd (ix2 e k) else 0 := by
  unfold Ideal.hostScatterAdd
  refine congrArg (x (ix2 r k) + ·) ?_
  rw [Finset.sum_filter, sum_idx2]
  refine Finset.sum_congr rfl fun e _ => ?_
  by_cases hP : (idx (ix2 e 0)).toInt = (r.val : Int)
  · rw [if_pos hP, Finset.sum_eq_single k]
    · rw [if_pos ((rowScatter_resultIdx_iff wf idx e k k r).2 ⟨hP, rfl⟩)]
    · intro k' _ hk'
      rw [if_neg (fun h => hk' ((rowScatter_resultIdx_iff wf idx e k' k r).1 h).2)]
    · intro h; exact absurd (Finset.mem_univ k) h
  · rw [if_neg hP]
    refine Finset.sum_eq_zero fun k' _ => ?_
    rw [if_neg (fun h => hP ((rowScatter_resultIdx_iff wf idx e k' k r).1 h).1)]

/-- The same for the program`s accumulating scatter at the extended reals, which is that exact sum. -/
theorem host_scatterAdd_rows_apply {φ : FTy} (x : FVec Ideal ⟨2, ![R, C]⟩ φ) (idx : IVec ⟨2, ![E, 1]⟩ w)
    (upd : FVec Ideal ⟨2, ![E, C]⟩ φ) (r : Fin R) (k : Fin C) :
    Host.scatterAdd (rowScatterDims R C E wf) x idx upd (ix2 r k)
      = x (ix2 r k) + ∑ e : Fin E, if (idx (ix2 e 0)).toInt = (r.val : Int) then upd (ix2 e k) else 0 :=
  scatterAdd_rows_apply wf x idx upd r k

end

end Cert.Lib

end
-- ==== Proof.LibRowGather.lean ====
/-
  A gather of whole rows read at an index.

  What `x[idx]` of a table `x : [N, C]` at an integer vector `idx : [E]` lowers to: a gather with offset_dims `[1]`,
  collapsed_slice_dims `[0]`, start_index_map `[0]`, slice sizes `[1, C]` and index_vector_dim 1 over the indices as
  `[E, 1]`.  Result element `(e, k)` is `x` at row `idx[e, 0]` — read as a signed integer and clamped into `[0, N − 1]`,
  as a gather clamps every start index — and column `k`.
-/
import Idealize.ShloMosaic.PureOps
import Idealize.ShloMosaic.Lib.ValueIdx

noncomputable section

namespace Cert.Lib

open Idealize.ShloMosaic Idealize.ShloMosaic.ValueIdx

variable {α : Type}

/-- Those dimension numbers for a table `[N, C]`, start indices `[E, 1]` and result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the clamped row `idx[e, 0]` and column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (⟨min (idx (ix2 e 0)).toInt.toNat (N - 1), by omega⟩ : Fin N) k) := by
  unfold Host.gather
  congr 1
  funext a
  refine Fin.ext ?_
  show (rowDims N C E wf).start (ix2 e k) idx a + (rowDims N C E wf).batchCoord (ix2 e k) a
      + (rowDims N C E wf).offCoord (ix2 e k) a = _
  rw [GatherDims.batchCoord_eq_zero _ _ _ List.not_mem_nil, Nat.add_zero]
  have ha : a = (0 : Fin 2) ∨ a = (1 : Fin 2) := by
    rcases a with ⟨v, hv⟩
    have hv2 : v < 2 := hv
    rcases Nat.lt_or_ge v 1 with h | h
    · left; exact Fin.ext (by show v = 0; omega)
    · right; exact Fin.ext (by show v = 1; omega)
  rcases ha with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ (rowDims N C E wf).startIndexMap from
      fun h => absurd (congrArg Fin.val (List.mem_singleton.mp h)) Nat.one_ne_zero), Nat.zero_add]
    rfl

end Cert.Lib

end
-- ==== Proof.HostStages1.lean ====
/-
  The kernel program between its first region and its return: the arrays the second region finds, and the result.

  After the first region the host computes, from the two index vectors, the reciprocal square roots of the clipped
  degrees; scales the first region's output rows by the source factor, gathers them along the edges and adds them
  into their destination rows; pads the second weight matrix and bias with zeros to whole tiles; and, after the
  second region, cuts the padding columns off its output.  Each of these arrays is read here as a function of the
  program's arguments and of the first region's output array.
-/
import proofs.«156711_j13134009991724_2_alg».proof.Proof.Gen.KernelIdeal.Frame
import proofs.«156711_j13134009991724_2_alg».proof.Proof.Gen.ReferenceIdeal.Read
import proofs.«156711_j13134009991724_2_alg».proof.Proof.Region1Value
import proofs.«156711_j13134009991724_2_alg».proof.Proof.LibTRefCasts
import proofs.«156711_j13134009991724_2_alg».proof.Proof.LibPadRead
import proofs.«156711_j13134009991724_2_alg».proof.Proof.LibRowScatter
import proofs.«156711_j13134009991724_2_alg».proof.Proof.LibRowGather
import proofs.«156711_j13134009991724_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.HostStages1

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The result -/

/-- The result is the second region's output array with its padding columns cut off. -/
theorem result_eq_slice (c : Dev nD) :
    (W23 (F := Ideal) m ρ c (Proc.devRef .tc main_v61) : S2048x5000.Idx → EReal)
      = extractStridedSlice S2048x5000 ![0, 0] ((dat1 (F := Ideal) (V21 m ρ) c).arrAt 4 cfg1.N : S2048x5120.Idx → EReal) slices_S2048x5120_S2048x5000_0_0 := by
  rw [← W22_arr m ρ c 4]
  dsimp only [W23]
  after_results_simp

/-- The result at row p and column n is the second region's formula, of the arrays that region finds, at the same
    row and column. -/
theorem result_apply (c : Dev nD) (p : Fin 2048) (n : Fin 5000) :
    (W23 (F := Ideal) m ρ c (Proc.devRef .tc main_v61) : S2048x5000.Idx → EReal) (ix2 p n)
      = RegionValue.layer2 (V21 m ρ c main_v52) (V21 m ρ c main_v54) (V21 m ρ c main_v59) (V21 m ρ c main_v58)
          (ix2 p (⟨n.val, by omega⟩ : Fin 5120)) := by
  rw [result_eq_slice, RegionValue.region1_array (V21 m ρ) c]
  exact slice2_axis1_apply 0 _ slices_S2048x5120_S2048x5000_0_0 p n ⟨n.val, by omega⟩ (Nat.zero_add _).symm

/-! ## The arguments as the first region leaves them -/

/-- The first region and the host operations before it leave the second weight matrix as launched. -/
theorem exit0_arg3 (c : Dev nD) : W10 (F := Ideal) m ρ c (Proc.devRef .tc main_arg3) = m ((c : Thread nD τ).loc main_arg3) :=
  (W10_of_ne m ρ c main_arg3 (by decide)).trans (by dsimp only [W9, W8, W7, W6, W5, W4, W3, W2, W1]; after_results_simp)
/-- … the second bias as launched … -/
theorem exit0_arg4 (c : Dev nD) : W10 (F := Ideal) m ρ c (Proc.devRef .tc main_arg4) = m ((c : Thread nD τ).loc main_arg4) :=
  (W10_of_ne m ρ c main_arg4 (by decide)).trans (by dsimp only [W9, W8, W7, W6, W5, W4, W3, W2, W1]; after_results_simp)
/-- … the second layer's source indices as launched … -/
theorem exit0_arg7 (c : Dev nD) : W10 (F := Ideal) m ρ c (Proc.devRef .tc main_arg7) = m ((c : Thread nD τ).loc main_arg7) :=
  (W10_of_ne m ρ c main_arg7 (by decide)).trans (by dsimp only [W9, W8, W7, W6, W5, W4, W3, W2, W1]; after_results_simp)
/-- … and the second layer's destination indices as launched. -/
theorem exit0_arg8 (c : Dev nD) : W10 (F := Ideal) m ρ c (Proc.devRef .tc main_arg8) = m ((c : Thread nD τ).loc main_arg8) :=
  (W10_of_ne m ρ c main_arg8 (by decide)).trans (by dsimp only [W9, W8, W7, W6, W5, W4, W3, W2, W1]; after_results_simp)

/-! ## The arrays the second region finds -/

/-- The dimension numbers of the in-degree count are the same record in the two programs. -/
theorem dims_deg_in : Cert.KernelIdeal.scatter_S2048_S100000x1_S100000_n_0_0_1 = Cert.ReferenceIdeal.scatter_S2048_S100000x1_S100000_n_0_0_1 := rfl

/-- The scale column the second region finds is the reference's column of reciprocal square roots of the clipped
    in-degrees: the same composition of the same operations on the destination indices. -/
theorem entry1_rdeg (c : Dev nD) :
    V21 (F := Ideal) m ρ c main_v54 = Cert.ReferenceIdeal.Read.val_main_v55 (F := Ideal) (m ((c : Thread nD τ).loc main_arg8)) := by
  show W21 (F := Ideal) m ρ c (Proc.devRef .tc main_v54) = _
  dsimp only [W21, W20, W19, W18, W17, W16, W15, W14, W13, W12, W11]
  after_results_simp
  rw [exit0_arg8]
  simp only [Cert.ReferenceIdeal.Read.val_main_v55, Cert.ReferenceIdeal.Read.val_main_v54, Cert.ReferenceIdeal.Read.val_main_v39,
    Cert.ReferenceIdeal.Read.val_main_v38, Cert.ReferenceIdeal.Read.val_main_v37, Cert.ReferenceIdeal.Read.val_main_v36,
    Cert.ReferenceIdeal.Read.val_main_v31, Cert.ReferenceIdeal.Read.val_main_call3_v1, Cert.ReferenceIdeal.Read.val_main_call3_v0,
    Cert.ReferenceIdeal.Read.val_main_cst_10, Cert.ReferenceIdeal.Read.val_main_cst_9, Cert.ReferenceIdeal.Read.val_main_cst_6]
  simp only [Cert.Lib.ofBuf_toBuf, Cert.Lib.toBuf_ofBuf, id, dims_deg_in]
  simp only [TRef.toBuf, TRef.ofBuf, cast_eq]

/-- The weight the second region finds is the second weight matrix padded with zero rows and zero columns to whole
    tiles, in the narrower float format. -/
theorem entry1_weight_eq (c : Dev nD) :
    V21 (F := Ideal) m ρ c main_v59
      = truncf .bf16 (pad S1024x5120 ![0, 0] ![0, 120] ![0, 0]
          (pad S1024x5000 ![0, 0] ![24, 0] ![0, 0] (m ((c : Thread nD τ).loc main_arg3))
            (sitofp (F := Ideal) .f32 (constantI S_ 32 0#32)) pads_S1000x5000_S1024x5000_0240_000 h_S_)
          (sitofp (F := Ideal) .f32 (constantI S_ 32 0#32)) pads_S1024x5000_S1024x5120_000_01200 h_S_) bitsLt_bf16_f32 := by
  show W21 (F := Ideal) m ρ c (Proc.devRef .tc main_v59) = _
  dsimp only [W21, W20, W19, W18, W17, W16, W15, W14, W13, W12, W11]
  after_results_simp
  rw [exit0_arg3]
  simp only [Cert.Lib.ofBuf_toBuf, Cert.Lib.toBuf_ofBuf]
  simp only [TRef.toBuf, TRef.ofBuf, cast_eq]

/-- Read at row k and column q: the weight matrix's entry where both are inside it, zero in the padding. -/
theorem entry1_weight (c : Dev nD) (k : Fin 1024) (q : Fin 5120) :
    V21 (F := Ideal) m ρ c main_v59 (ix2 k q)
      = if hk : k.val < 1000 then (if hq : q.val < 5000 then
          m ((c : Thread nD τ).loc main_arg3) (ix2 ⟨k.val, hk⟩ ⟨q.val, hq⟩) else (0 : EReal)) else (0 : EReal) := by
  rw [entry1_weight_eq, truncf_apply, Cert.Lib.pad_high_cols_apply]
  by_cases hq : q.val < 5000
  · rw [dif_pos hq, Cert.Lib.pad_high_rows_apply]
    by_cases hk : k.val < 1000
    · rw [dif_pos hk, dif_pos hk, dif_pos hq]
    · rw [dif_neg hk, dif_neg hk, Cert.Lib.sitofp_zero_apply]
  · rw [dif_neg hq, Cert.Lib.sitofp_zero_apply]
    by_cases hk : k.val < 1000
    · rw [dif_pos hk, dif_neg hq]
    · rw [dif_neg hk]

/-- The bias row the second region finds is the second bias padded with zeros to whole tiles, as one row. -/
theorem entry1_bias_eq (c : Dev nD) :
    V21 (F := Ideal) m ρ c main_v58
      = shapeCast S1x5120 (pad S5120 ![0] ![120] ![0] (m ((c : Thread nD τ).loc main_arg4))
            (sitofp (F := Ideal) .f32 (constantI S_ 32 0#32)) pads_S5000_S5120_01200 h_S_) shapeCasts_S5120_S1x5120 := by
  show W21 (F := Ideal) m ρ c (Proc.devRef .tc main_v58) = _
  dsimp only [W21, W20, W19, W18, W17, W16, W15, W14, W13, W12, W11]
  after_results_simp
  rw [exit0_arg4]
  simp only [Cert.Lib.ofBuf_toBuf, Cert.Lib.toBuf_ofBuf]
  simp only [TRef.toBuf, TRef.ofBuf, cast_eq]
  rfl

/-- Read at column q: the bias's entry where q is inside it, zero in the padding. -/
theorem entry1_bias (c : Dev nD) (q : Fin 5120) :
    V21 (F := Ideal) m ρ c main_v58 (ix2 (0 : Fin 1) q)
      = if hq : q.val < 5000 then m ((c : Thread nD τ).loc main_arg4) (ix1 ⟨q.val, hq⟩) else (0 : EReal) := by
  rw [entry1_bias_eq, shapeCast_a_1a_apply, Cert.Lib.pad_high_vec_apply, Cert.Lib.sitofp_zero_apply]

/-- The dimension numbers of the out-degree count are the same record in the two programs. -/
theorem dims_deg_out : Cert.KernelIdeal.scatter_S10000_S100000x1_S100000_n_0_0_1 = Cert.ReferenceIdeal.scatter_S10000_S100000x1_S100000_n_0_0_1 := rfl

/-- The activation the second region finds: the first region's output rows, each scaled by the reciprocal square root of
    its clipped out-degree, gathered along the edges' sources and added into the edges' destination rows.  The index
    vectors and the scale column are the reference's compositions of the same operations. -/
theorem entry1_agg_eq (c : Dev nD) :
    V21 (F := Ideal) m ρ c main_v52
      = Host.scatterAdd scatter_S2048x1024_S100000x1_S100000x1024_1_0_0_1
          (broadcastInDim S2048x1024 ![] bcast_S_S2048x1024 (constant (F := Ideal) S_ .f32 0x00000000#32))
          (Cert.ReferenceIdeal.Read.val_main_v52 (F := Ideal) (m ((c : Thread nD τ).loc main_arg8)))
          (Host.gather gather_S10000x1024_S100000x1_S100000x1024_1_0_n_n_0_1_11024
            (mulf (W10 (F := Ideal) m ρ c (Proc.devRef .tc main_v29))
              (broadcastInDim S10000x1024 ![0, 1] bcast_S10000x1_S10000x1024_0_1
                (Cert.ReferenceIdeal.Read.val_main_v41 (F := Ideal) (m ((c : Thread nD τ).loc main_arg7)))))
            (Cert.ReferenceIdeal.Read.val_main_v49 (F := Ideal) (m ((c : Thread nD τ).loc main_arg7)))) := by
  show W21 (F := Ideal) m ρ c (Proc.devRef .tc main_v52) = _
  dsimp only [W21, W20, W19, W18, W17, W16, W15, W14, W13, W12, W11]
  after_results_simp
  rw [exit0_arg7, exit0_arg8]
  simp only [Cert.ReferenceIdeal.Read.val_main_v52, Cert.ReferenceIdeal.Read.val_main_v49, Cert.ReferenceIdeal.Read.val_main_v48,
    Cert.ReferenceIdeal.Read.val_main_v47, Cert.ReferenceIdeal.Read.val_main_v46, Cert.ReferenceIdeal.Read.val_main_v45,
    Cert.ReferenceIdeal.Read.val_main_v44, Cert.ReferenceIdeal.Read.val_main_c_11, Cert.ReferenceIdeal.Read.val_main_c_12,
    Cert.ReferenceIdeal.Read.val_main_v41, Cert.ReferenceIdeal.Read.val_main_v40, Cert.ReferenceIdeal.Read.val_main_v35,
    Cert.ReferenceIdeal.Read.val_main_v34, Cert.ReferenceIdeal.Read.val_main_v33, Cert.ReferenceIdeal.Read.val_main_v32,
    Cert.ReferenceIdeal.Read.val_main_v31, Cert.ReferenceIdeal.Read.val_main_call2_v1, Cert.ReferenceIdeal.Read.val_main_call2_v0,
    Cert.ReferenceIdeal.Read.val_main_cst_8, Cert.ReferenceIdeal.Read.val_main_cst_7, Cert.ReferenceIdeal.Read.val_main_cst_6]
  simp only [Cert.Lib.ofBuf_toBuf, Cert.Lib.toBuf_ofBuf, id, dims_deg_out]
  simp only [TRef.toBuf, TRef.ofBuf, cast_eq]

/-- The sum over the edges that land on row r: the table H at the edge's source row (read signed and clamped into the
    table) and column k, times the scale s of that row. -/
def edgeSum (H : S10000x1024.Idx → EReal) (s : S10000x1.Idx → EReal) (src dst : S100000x1.Idx → BitVec 32)
    (r : Fin 2048) (k : Fin 1024) : EReal :=
  ∑ e : Fin 100000, if (dst (ix2 e 0)).toInt = (r.val : Int) then
      H (ix2 (⟨min (src (ix2 e 0)).toInt.toNat (10000 - 1), by omega⟩ : Fin 10000) k)
        * s (ix2 (⟨min (src (ix2 e 0)).toInt.toNat (10000 - 1), by omega⟩ : Fin 10000) 0)
    else 0

/-- A scale column broadcast along the lanes reads, at row n and any column, the column's entry of row n. -/
theorem scale_bcast_apply (s : S10000x1.Idx → EReal) (n : Fin 10000) (k : Fin 1024) :
    broadcastInDim S10000x1024 ![0, 1] bcast_S10000x1_S10000x1024_0_1 s (ix2 n k) = s (ix2 n 0) :=
  broadcastInDim_apply _ _ _ (ix2 n k) (ix2 n 0) (fun a => by
    match a with
    | ⟨0, _⟩ => rfl
    | ⟨1, _⟩ => rfl)

/-- Read at row r and column k: the sum, over the edges whose destination is r, of the first region's output at the
    edge's source row and column k, times that row's scale. -/
theorem entry1_agg_apply (c : Dev nD) (r : Fin 2048) (k : Fin 1024) :
    V21 (F := Ideal) m ρ c main_v52 (ix2 r k)
      = edgeSum (W10 (F := Ideal) m ρ c (Proc.devRef .tc main_v29))
          (Cert.ReferenceIdeal.Read.val_main_v41 (F := Ideal) (m ((c : Thread nD τ).loc main_arg7)))
          (Cert.ReferenceIdeal.Read.val_main_v49 (F := Ideal) (m ((c : Thread nD τ).loc main_arg7)))
          (Cert.ReferenceIdeal.Read.val_main_v52 (F := Ideal) (m ((c : Thread nD τ).loc main_arg8))) r k := by
  have hS : scatter_S2048x1024_S100000x1_S100000x1024_1_0_0_1
      = Cert.Lib.rowScatterDims 2048 1024 100000 scatter_S2048x1024_S100000x1_S100000x1024_1_0_0_1_wf := rfl
  have hG : gather_S10000x1024_S100000x1_S100000x1024_1_0_n_n_0_1_11024
      = Cert.Lib.rowDims 10000 1024 100000 gather_S10000x1024_S100000x1_S100000x1024_1_0_n_n_0_1_11024_wf := rfl
  rw [entry1_agg_eq, hS, Cert.Lib.host_scatterAdd_rows_apply]
  show Ideal.ofBits .f32 0x00000000#32 + _ = _
  rw [Ideal.ofBits_zero_f32, zero_add]
  unfold edgeSum
  refine Finset.sum_congr rfl fun e _ => ?_
  refine if_congr Iff.rfl ?_ rfl
  rw [hG, Cert.Lib.gather_rows_apply (by omega), mulf_apply, scale_bcast_apply]

end Cert.KernelIdeal.HostStages1
end
-- ==== Proof.RefFormula.lean ====
/-
  The reference program read at its coordinates.

  The reference is two graph-convolution layers and a logistic.  A layer takes the rows of a table at the edges'
  sources, adds them up at the edges' targets, scales each row by a degree factor, multiplies by a weight matrix
  and adds a bias.  Here the stages of the second half are written at one element: layer 1's output row by row,
  layer 2's aggregation as a sum over the edges that land on the row, and the final result as the logistic of a
  sum over the hidden width plus the bias.
-/
import proofs.«156711_j13134009991724_2_alg».proof.Proof.Gen.ReferenceIdeal.Read
import proofs.«156711_j13134009991724_2_alg».proof.Proof.LibRowScatter
import proofs.«156711_j13134009991724_2_alg».proof.Proof.LibRowGather
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable (x0 : (⟨S50000x256, .f32⟩ : BufTy).Contents (Elt Ideal))
  (x1 : (⟨S256x1000, .f32⟩ : BufTy).Contents (Elt Ideal))
  (x2 : (⟨S1000, .f32⟩ : BufTy).Contents (Elt Ideal))
  (x3 : (⟨S1000x5000, .f32⟩ : BufTy).Contents (Elt Ideal))
  (x4 : (⟨S5000, .f32⟩ : BufTy).Contents (Elt Ideal))
  (x5 x6 : (⟨S500000, .i32⟩ : BufTy).Contents (Elt Ideal))
  (x7 x8 : (⟨S100000, .i32⟩ : BufTy).Contents (Elt Ideal))

/-- THE RESULT AT `(p, n)`: the logistic of layer 2's linear map there — the sum over the hidden width of the
    aggregated, degree-scaled row `p` times column `n` of the second weight matrix, plus the second bias at `n`. -/
theorem result_apply (p : Fin 2048) (n : Fin 5000) :
    Read.val_main_v67 (F := Ideal) x0 x1 x2 x3 x4 x5 x6 x7 x8 (ix2 p n)
      = Ideal.logistic ((∑ k : Fin 1000,
          (Read.val_main_v53 (F := Ideal) x0 x1 x2 x5 x6 x7 x8 (ix2 p k) * Read.val_main_v55 (F := Ideal) x8 (ix2 p 0))
            * x3 (ix2 k n)) + x4 (ix1 n)) := by
  have el : ∀ k : Fin 1000, Read.lidx_main_v58 (ix2 p n) k = ix2 p k := fun k =>
    funext fun a => Fin.ext (by match a with | ⟨0, _⟩ => rfl | ⟨1, _⟩ => rfl)
  have er : ∀ k : Fin 1000, Read.ridx_main_v58 (ix2 p n) k = ix2 k n := fun k =>
    funext fun a => Fin.ext (by match a with | ⟨0, _⟩ => rfl | ⟨1, _⟩ => rfl)
  have e56 : ∀ k : Fin 1000, Read.idx_main_v56 (ix2 p k) = ix2 p (0 : Fin 1) := fun k =>
    funext fun a => Fin.ext (by match a with | ⟨0, _⟩ => rfl | ⟨1, _⟩ => rfl)
  have e60 : Read.idx_main_v60 (ix2 p n) = ix2 (0 : Fin 1) n :=
    funext fun a => Fin.ext (by match a with | ⟨0, _⟩ => rfl | ⟨1, _⟩ => rfl)
  have e59 : Read.idx_main_v59 (ix2 (0 : Fin 1) n) = ix1 n :=
    funext fun a => Fin.ext (by match a with | ⟨0, _⟩ => rfl)
  rw [Read.val_main_v67_apply, Read.val_main_v66_apply, Read.val_main_cst_15_apply, Read.val_main_v65_apply,
    Read.val_main_v64_apply, Read.val_main_cst_14_apply, Read.val_main_v63_apply, Read.val_main_v62_apply,
    Read.val_main_v61_apply, Read.val_main_v58_apply, Read.val_main_v60_apply, Read.val_main_v59_apply, e60, e59]
  simp only [Read.val_main_v57_apply, Read.val_main_v56_apply, el, er, e56, Ideal.ofBits_def, Ideal.ofBits_one_f32,
    Ideal.hostDivf_def, Ideal.hostUnary_exp_def, Ideal.hostNegf_def, Ideal.negf_def, Ideal.addf_def, Ideal.mulf_def,
    Ideal.logistic]

/-- LAYER 1'S OUTPUT AT `(p, q)`: the sum over the input width of the aggregated, degree-scaled row `p` times
    column `q` of the first weight matrix, plus the first bias at `q`, the whole scaled by row `p`'s second degree
    factor. -/
theorem layer1_out_apply (p : Fin 10000) (q : Fin 1000) :
    Read.val_main_v43 (F := Ideal) x0 x1 x2 x5 x6 x7 (ix2 p q)
      = ((∑ k : Fin 256,
          (Read.val_main_v22 (F := Ideal) x0 x5 x6 (ix2 p k) * Read.val_main_v24 (F := Ideal) x6 (ix2 p 0))
            * x1 (ix2 k q)) + x2 (ix1 q)) * Read.val_main_v41 (F := Ideal) x7 (ix2 p 0) := by
  have el : ∀ k : Fin 256, Read.lidx_main_v27 (ix2 p q) k = ix2 p k := fun k =>
    funext fun a => Fin.ext (by match a with | ⟨0, _⟩ => rfl | ⟨1, _⟩ => rfl)
  have er : ∀ k : Fin 256, Read.ridx_main_v27 (ix2 p q) k = ix2 k q := fun k =>
    funext fun a => Fin.ext (by match a with | ⟨0, _⟩ => rfl | ⟨1, _⟩ => rfl)
  have e25 : ∀ k : Fin 256, Read.idx_main_v25 (ix2 p k) = ix2 p (0 : Fin 1) := fun k =>
    funext fun a => Fin.ext (by match a with | ⟨0, _⟩ => rfl | ⟨1, _⟩ => rfl)
  have e29 : Read.idx_main_v29 (ix2 p q) = ix2 (0 : Fin 1) q :=
    funext fun a => Fin.ext (by match a with | ⟨0, _⟩ => rfl | ⟨1, _⟩ => rfl)
  have e28 : Read.idx_main_v28 (ix2 (0 : Fin 1) q) = ix1 q :=
    funext fun a => Fin.ext (by match a with | ⟨0, _⟩ => rfl)
  have e42 : Read.idx_main_v42 (ix2 p q) = ix2 p (0 : Fin 1) :=
    funext fun a => Fin.ext (by match a with | ⟨0, _⟩ => rfl | ⟨1, _⟩ => rfl)
  rw [Read.val_main_v43_apply, Read.val_main_v30_apply, Read.val_main_v27_apply, Read.val_main_v29_apply,
    Read.val_main_v28_apply, Read.val_main_v42_apply, e29, e28, e42]
  simp only [Read.val_main_v26_apply, Read.val_main_v25_apply, el, er, e25, Ideal.addf_def, Ideal.mulf_def]

/-- LAYER 2'S AGGREGATION AT `(r, k)`: the sum, over the second layer's edges whose target is `r`, of layer 1's output
    at the edge's source row — the source read as a signed integer and clamped into the table — and column `k`. -/
theorem layer2_agg_apply (r : Fin 2048) (k : Fin 1000) :
    Read.val_main_v53 (F := Ideal) x0 x1 x2 x5 x6 x7 x8 (ix2 r k)
      = ∑ e : Fin 100000, if (Read.val_main_v52 (F := Ideal) x8 (ix2 e 0)).toInt = (r.val : Int) then
          Read.val_main_v43 (F := Ideal) x0 x1 x2 x5 x6 x7
            (ix2 (⟨min (Read.val_main_v49 (F := Ideal) x7 (ix2 e 0)).toInt.toNat (10000 - 1), by omega⟩ : Fin 10000) k)
        else 0 := by
  have hs : scatter_S2048x1000_S100000x1_S100000x1000_1_0_0_1
      = Cert.Lib.rowScatterDims 2048 1000 100000 scatter_S2048x1000_S100000x1_S100000x1000_1_0_0_1_wf := rfl
  have hg : gather_S10000x1000_S100000x1_S100000x1000_1_0_n_n_0_1_11000
      = Cert.Lib.rowDims 10000 1000 100000 gather_S10000x1000_S100000x1_S100000x1000_1_0_n_n_0_1_11000_wf := rfl
  have hrow : ∀ e : Fin 100000, Read.val_main_v50 (F := Ideal) x0 x1 x2 x5 x6 x7 (ix2 e k)
      = Read.val_main_v43 (F := Ideal) x0 x1 x2 x5 x6 x7
          (ix2 (⟨min (Read.val_main_v49 (F := Ideal) x7 (ix2 e 0)).toInt.toNat (10000 - 1), by omega⟩ : Fin 10000) k) := by
    intro e
    unfold Read.val_main_v50
    rw [hg, Cert.Lib.gather_rows_apply (by decide : 0 < 10000)]
  unfold Read.val_main_v53
  rw [hs, Cert.Lib.host_scatterAdd_rows_apply, Read.val_main_v51_apply, Read.val_main_cst_13_apply, Ideal.ofBits_def,
    Ideal.ofBits_zero_f32, zero_add]
  simp only [hrow]

end Cert.ReferenceIdeal.RefValue

end
-- ==== Proof.Region0Value.lean ====
/-
  The first kernel region's output array, as one formula of the arrays the region reads.

  The region's grid has five points.  Point t works on rows 2000·t … 2000·t + 1999: it reads those rows of the
  activation a and of the per-row scale r, all of the weight w and of the bias row b, and writes those rows of the
  output.  The body computes, for a row p of the block and a column q,
      (∑ k, (a(p, k) · r(p, 0)) · w(k, q)) + b(0, q):
  the scaled rows change float format before the product, which is the identity over the extended reals, and the
  product accumulates into zero.  The five row blocks tile the output, so after the region the array holds this formula
  at every index.
-/
import proofs.«156711_j13134009991724_2_alg».proof.Proof.Gen.KernelIdeal.Frame
import proofs.«156711_j13134009991724_2_alg».proof.Proof.LibPlainDot
import proofs.«156711_j13134009991724_2_alg».proof.Proof.LibKeepdims
import Idealize.ShloMosaic.Lib.Pipeline.Value
import Idealize.ShloMosaic.Lib.ValueIdx
import Idealize.ShloMosaic.Lib.ValueLayout
import Idealize.ShloMosaic.PureOps.Ideal

noncomputable section

namespace Cert.KernelIdeal.RegionValue

open Cert.KernelIdeal Cert.KernelIdeal.Gen
open Idealize.ShloMosaic Idealize.ShloMosaic.TcCoe Idealize.ShloMosaic.ValueIdx
open Idealize.SL.Sem
open Idealize.ShloMosaic.Pipeline (Dat)

/-- The region's result: row i₀ of the activation scaled by that row's factor, times the weight, plus the bias row. -/
def layer1 (a : S10000x256.Idx → EReal) (r : S10000x1.Idx → EReal) (w : S256x1024.Idx → EReal) (b : S1x1024.Idx → EReal) :
    S10000x1024.Idx → EReal :=
  fun i => (∑ k : Fin 256, (a (ix2 (i 0) k) * r (ix2 (i 0) 0)) * w (ix2 k (i 1))) + b (ix2 0 (i 1))

/-- The body's arithmetic on one block, read at row p and column q: the column of scales is broadcast along the
    rows' lanes, the change of float format is the identity, the product into a zero accumulator is the plain sum over
    the contracted axis, and the bias row is broadcast down the rows. -/
theorem layer1_payload (x0 : Vec Ideal S2000x256 .f32) (x1 : Vec Ideal S2000x1 .f32) (x2 : Vec Ideal S256x1024 .bf16)
    (x3 : Vec Ideal S1x1024 .f32) (p : Fin 2000) (q : Fin 1024) :
    k0_pay1 (F := Ideal) x0 x1 x2 x3 (ix2 p q)
      = (∑ k : Fin 256, (x0 (ix2 p k) * x1 (ix2 p 0)) * x2 (ix2 k q)) + x3 (ix2 0 q) := by
  unfold k0_pay1
  simp only [shapeCast_self]
  refine (addf_apply _ _ _).trans ?_
  rw [broadcastTo_1b_ab_apply]
  refine congrArg (· + x3 (ix2 0 q)) ?_
  refine (Cert.Lib.matmul_plain_zero_apply (M := 2000) (K := 256) (N := 1024) (φ₁ := .bf16) (φ₂ := .bf16) none _ _ p q).trans ?_
  refine Finset.sum_congr rfl fun k _ => ?_
  refine congrArg (· * x2 (ix2 k q)) ?_
  show x0 (ix2 p k) * broadcastTo S2000x256 x1 broadcasts_S2000x1_S2000x256 (ix2 p k) = _
  rw [Cert.LibKeepdims.broadcastTo_a1_ab_apply]

/-- The body's arithmetic on one block is the region's formula at the array index i, once each block entry the
    formula reads is the array entry it names. -/
theorem layer1_at (a : S10000x256.Idx → EReal) (r : S10000x1.Idx → EReal) (w : S256x1024.Idx → EReal) (b : S1x1024.Idx → EReal)
    (x0 : Vec Ideal S2000x256 .f32) (x1 : Vec Ideal S2000x1 .f32) (x2 : Vec Ideal S256x1024 .bf16) (x3 : Vec Ideal S1x1024 .f32)
    (j : S2000x1024.Idx) (i : S10000x1024.Idx) (p : Fin 2000) (q : Fin 1024) (hj : j = ix2 p q)
    (h0 : ∀ k : Fin 256, x0 (ix2 p k) = a (ix2 (i 0) k)) (h1 : x1 (ix2 p 0) = r (ix2 (i 0) 0))
    (h2 : ∀ k : Fin 256, x2 (ix2 k q) = w (ix2 k (i 1))) (h3 : x3 (ix2 0 q) = b (ix2 0 (i 1))) :
    k0_pay1 (F := Ideal) x0 x1 x2 x3 j = layer1 a r w b i := by
  subst hj
  rw [layer1_payload]
  unfold layer1
  simp only [h0, h1, h2, h3]

/-- The two zero offsets of a load or store of a whole block, as the constant function. -/
theorem zero_offsets0 : (![0, 0] : Fin 2 → Nat) = fun _ => 0 := funext fun a => by fin_cases a <;> rfl

/-- The index maps over the five grid points: the activation, the scale column and the output move down one row block
    per point; the weight and the bias row stay. -/
theorem index_maps0 : ∀ t : Fin cfg0.N, t.val < 5
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every row block is some point's. -/
theorem index_onto0 : ∀ n : Fin 5, ∃ t : Fin cfg0.N, win0_4.index t (0 : Fin 2) = n.val :=
  (by decide +kernel : ∀ n : Fin 5, ∃ t : Fin grid0.N, win0_4.index t (0 : Fin 2) = n.val)

variable (V : (c : Dev nD) → (b : Ref sig .tc) → Buf (Elt Ideal) ((c : Thread nD τ).loc b))

/-- The activation's block at point t holds rows 2000·t … of the array. -/
theorem block0_act (c : Dev nD) (t : Fin cfg0.N) (x : S2000x256.Idx) (i : S10000x256.Idx)
    (h0 : (i 0).val = t.val * 2000 + (x 0).val) (h1 : (i 1).val = (x 1).val) :
    (iblk0 (F := Ideal) V c 0 t : Vec Ideal S2000x256 .f32) x = (V c main_v22 : S10000x256.Idx → EReal) i := by
  obtain ⟨-, e0, e1, -⟩ := index_maps0 t
  unfold iblk0
  rw [View.read_apply]
  show V c main_v22 _ = V c main_v22 _
  congr 1
  funext a
  apply Fin.ext
  match a with
  | ⟨0, _⟩ => show win0_0.index t 0 * 2000 + 1 * (x 0).val = (i 0).val; rw [e0, h0]; omega
  | ⟨1, _⟩ => show win0_0.index t 1 * 256 + 1 * (x 1).val = (i 1).val; rw [e1, h1]; omega

/-- The scale column's block at point t holds rows 2000·t … of the column. -/
theorem block0_scale (c : Dev nD) (t : Fin cfg0.N) (x : S2000x1.Idx) (i : S10000x1.Idx)
    (h0 : (i 0).val = t.val * 2000 + (x 0).val) (h1 : (i 1).val = (x 1).val) :
    (iblk0 (F := Ideal) V c 1 t : Vec Ideal S2000x1 .f32) x = (V c main_v24 : S10000x1.Idx → EReal) i := by
  obtain ⟨-, -, -, e0, e1, -⟩ := index_maps0 t
  unfold iblk0
  rw [View.read_apply]
  show V c main_v24 _ = V c main_v24 _
  congr 1
  funext a
  apply Fin.ext
  match a with
  | ⟨0, _⟩ => show win0_1.index t 0 * 2000 + 1 * (x 0).val = (i 0).val; rw [e0, h0]; omega
  | ⟨1, _⟩ => show win0_1.index t 1 * 1 + 1 * (x 1).val = (i 1).val; rw [e1, h1]; omega

/-- The weight's block at every point is the whole weight. -/
theorem block0_weight (c : Dev nD) (t : Fin cfg0.N) (x : S256x1024.Idx) :
    (iblk0 (F := Ideal) V c 2 t : Vec Ideal S256x1024 .bf16) x = (V c main_v28 : S256x1024.Idx → EReal) x := by
  obtain ⟨-, -, -, -, -, e0, e1, -⟩ := index_maps0 t
  unfold iblk0
  rw [View.read_apply]
  show V c main_v28 _ = V c main_v28 _
  congr 1
  funext a
  apply Fin.ext
  match a with
  | ⟨0, _⟩ => show win0_2.index t 0 * 256 + 1 * (x 0).val = (x 0).val; rw [e0]; omega
  | ⟨1, _⟩ => show win0_2.index t 1 * 1024 + 1 * (x 1).val = (x 1).val; rw [e1]; omega

/-- The bias row's block at every point is the whole row. -/
theorem block0_bias (c : Dev nD) (t : Fin cfg0.N) (x : S1x1024.Idx) :
    (iblk0 (F := Ideal) V c 3 t : Vec Ideal S1x1024 .f32) x = (V c main_v27 : S1x1024.Idx → EReal) x := by
  obtain ⟨-, -, -, -, -, -, -, e0, e1, -⟩ := index_maps0 t
  unfold iblk0
  rw [View.read_apply]
  show V c main_v27 _ = V c main_v27 _
  congr 1
  funext a
  apply Fin.ext
  match a with
  | ⟨0, _⟩ => show win0_3.index t 0 * 1 + 1 * (x 0).val = (x 0).val; rw [e0]; omega
  | ⟨1, _⟩ => show win0_3.index t 1 * 1024 + 1 * (x 1).val = (x 1).val; rw [e1]; omega

/-- What point t writes back is its row block of the region's formula of the arrays as the region finds them. -/
theorem region0_block (c : Dev nD) (t : Fin cfg0.N) :
    (dat0 (F := Ideal) V c).flushed 4 t
      = ((cfg0.win 4).blk t).view.read (Elt Ideal) (layer1 (V c main_v22) (V c main_v24) (V c main_v28) (V c main_v27)) := by
  show (cfg0.win 4).cut (grid0.coords t) ((dat0 V c).after 4 t) = _
  rw [after0_4]
  unfold out0_4
  rw [View.canon_unit_zero zero_offsets0]
  simp only [View.ld_unit_zero (S := S2000x256) zero_offsets0, View.ld_unit_zero (S := S2000x1) zero_offsets0,
    View.ld_unit_zero (S := S256x1024) zero_offsets0, View.ld_unit_zero (S := S1x1024) zero_offsets0]
  obtain ⟨-, -, -, -, -, -, -, -, -, e0, e1⟩ := index_maps0 t
  funext j
  have hp : (j 0).val < 2000 := (j 0).isLt
  have hq : (j 1).val < 1024 := (j 1).isLt
  have i0 : ((((cfg0.win 4).blk t).view.emb j) 0).val = t.val * 2000 + (j 0).val := by
    show win0_4.index t 0 * 2000 + 1 * (j 0).val = _; rw [e0]; omega
  have i1 : ((((cfg0.win 4).blk t).view.emb j) 1).val = (j 1).val := by
    show win0_4.index t 1 * 1024 + 1 * (j 1).val = _; rw [e1]; omega
  show k0_pay1 (F := Ideal) (iblk0 V c 0 t) (iblk0 V c 1 t) (iblk0 V c 2 t) (iblk0 V c 3 t) j
      = layer1 (V c main_v22) (V c main_v24) (V c main_v28) (V c main_v27) (((cfg0.win 4).blk t).view.emb j)
  refine layer1_at (V c main_v22) (V c main_v24) (V c main_v28) (V c main_v27)
    (iblk0 V c 0 t) (iblk0 V c 1 t) (iblk0 V c 2 t) (iblk0 V c 3 t) j (((cfg0.win 4).blk t).view.emb j) ⟨(j 0).val, hp⟩ ⟨(j 1).val, hq⟩
    (eq_ix2 j) (fun k => ?_) ?_ (fun k => ?_) ?_
  · exact block0_act V c t _ _ i0 rfl
  · exact block0_scale V c t _ _ i0 rfl
  · refine (block0_weight V c t _).trans (congrArg (V c main_v28 : S256x1024.Idx → EReal) ?_)
    funext a; apply Fin.ext
    match a with
    | ⟨0, _⟩ => rfl
    | ⟨1, _⟩ => exact i1.symm
  · refine (block0_bias V c t _).trans (congrArg (V c main_v27 : S1x1024.Idx → EReal) ?_)
    funext a; apply Fin.ext
    match a with
    | ⟨0, _⟩ => rfl
    | ⟨1, _⟩ => exact i1.symm

/-- An index of the output array is in point t's block iff each coordinate is in the block's range on its axis. -/
theorem mem_block0 (t : Fin cfg0.N) (i : S10000x1024.Idx) :
    i ∈ ((cfg0.win 4).blk t).view.set ↔ ∀ a : Fin 2, win0_4.index t a * S2000x1024.size a ≤ (i a).val
      ∧ (i a).val < win0_4.index t a * S2000x1024.size a + S2000x1024.size a := by
  show i ∈ ((View.whole main_v29).slice (win0_4.rect t)).set ↔ _
  rw [View.set_slice_whole, Rect.mem_set_unit]
  exact Iff.rfl

/-- The five row blocks tile the output: row n is in the block of point n / 2000. -/
theorem cover0 (i : S10000x1024.Idx) :
    ∃ t : Fin cfg0.N, (cfg0.win 4).flush t = true ∧ i ∈ ((cfg0.win 4).blk t).view.set := by
  have hi0 : (i 0).val < 10000 := (i 0).isLt
  have hi1 : (i 1).val < 1024 := (i 1).isLt
  obtain ⟨t, ht⟩ := index_onto0 ⟨(i 0).val / 2000, by omega⟩
  have ht' : win0_4.index t (0 : Fin 2) = (i 0).val / 2000 := ht
  obtain ⟨-, -, -, -, -, -, -, -, -, e0, e1⟩ := index_maps0 t
  refine ⟨t, flush0_4 t, ?_⟩
  rw [mem_block0]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 1024 ≤ (i 1).val ∧ (i 1).val < win0_4.index t (1 : Fin 2) * 1024 + 1024; omega

/-- After the region the output array holds the region's formula of the arrays the region found. -/
theorem region0_array (c : Dev nD) :
    (dat0 (F := Ideal) V c).arrAt 4 cfg0.N = layer1 (V c main_v22) (V c main_v24) (V c main_v28) (V c main_v27) :=
  (dat0 (F := Ideal) V c).arrAt_eq_of_cover 4 (layer1 (V c main_v22) (V c main_v24) (V c main_v28) (V c main_v27))
    (fun t _ => region0_block V c t) cover0

end Cert.KernelIdeal.RegionValue
end
-- ==== Proof.Bridge.lean ====
/-
  The two programs compute one function of the arguments.

  Layer 1.  Both programs form the same aggregate A (rows of x / sqrt(out-degree) gathered along the edges and summed into
  their destination rows) and the same column r = 1 / sqrt(in-degree).  The reference's hidden layer is
  h[p, q] = (∑ k, (A[p, k] · r[p]) · W1[k, q]) + b1[q] for q < 1000.  The kernel program computes the same expression over a
  weight matrix and a bias padded with zeros to 1024 columns, so its hidden layer agrees with h on the first 1000 columns
  (and its last 24 columns are never needed).

  Layer 2.  Scaling a row by its node's 1 / sqrt(out-degree), gathering rows along the edges and summing them into their
  destination rows all act column by column, so the kernel program's 1024-wide aggregate agrees with the reference's
  1000-wide one on the first 1000 columns.  The second weight matrix is padded with 24 zero ROWS, so in the contraction
  over 1024 terms the last 24 are products with zero and vanish (x · 0 = 0 for every extended real x); what is left is the
  reference's contraction over 1000 terms.  The bias entries agree below 5000, which is all the final slice keeps, and
  both programs end with the same logistic function.
-/
import proofs.«156711_j13134009991724_2_alg».proof.Proof.HostStages0
import proofs.«156711_j13134009991724_2_alg».proof.Proof.HostStages1
import proofs.«156711_j13134009991724_2_alg».proof.Proof.RefFormula
import proofs.«156711_j13134009991724_2_alg».proof.Proof.Region0Value
import proofs.«156711_j13134009991724_2_alg».proof.Proof.Region1Value
import proofs.«156711_j13134009991724_2_alg».proof.Proof.LibPadRead

set_option maxRecDepth 16384

noncomputable section
namespace Cert.Bridge
open Cert.KernelIdeal Cert.KernelIdeal.Gen
open Idealize.ShloMosaic Idealize.ShloMosaic.TcCoe Idealize.SL.Sem Idealize.ShloMosaic.ValueIdx
open Cert.KernelIdeal.RegionValue

/-! ## Zero padding adds only vanishing terms -/

/-- A sum over 1024 terms whose last 24 vanish is the sum of the first 1000. -/
theorem sum_1024_of_tail_zero (F : Fin 1024 → EReal) (G : Fin 1000 → EReal)
    (hlo : ∀ k : Fin 1000, F ⟨k.val, by omega⟩ = G k) (hhi : ∀ k : Fin 1024, 1000 ≤ k.val → F k = 0) :
    ∑ k, F k = ∑ k, G k := by
  refine (Cert.Lib.sum_drop_padding 1000 24 F (fun j => hhi _ ?_)).trans (Finset.sum_congr rfl fun k _ => hlo k)
  show 1000 ≤ 1000 + j.val
  omega

/-- The first kernel's formula over a weight and a bias padded with zero COLUMNS is, on a column below 1000, the
    unpadded formula. -/
theorem layer1_col (a : S10000x256.Idx → EReal) (r : S10000x1.Idx → EReal) (w : S256x1024.Idx → EReal)
    (b : S1x1024.Idx → EReal) (w' : (⟨2, ![256, 1000]⟩ : Shape).Idx → EReal) (b' : (⟨1, ![1000]⟩ : Shape).Idx → EReal)
    (hw : ∀ (k : Fin 256) (q : Fin 1024), w (ix2 k q) = if hq : q.val < 1000 then w' (ix2 k ⟨q.val, hq⟩) else 0)
    (hb : ∀ q : Fin 1024, b (ix2 (0 : Fin 1) q) = if hq : q.val < 1000 then b' (ix1 ⟨q.val, hq⟩) else 0)
    (p : Fin 10000) (q : Fin 1000) :
    layer1 a r w b (ix2 p (⟨q.val, by omega⟩ : Fin 1024))
      = (∑ k : Fin 256, (a (ix2 p k) * r (ix2 p 0)) * w' (ix2 k q)) + b' (ix1 q) := by
  have hq : (⟨q.val, by omega⟩ : Fin 1024).val < 1000 := q.isLt
  show (∑ k : Fin 256, (a (ix2 p k) * r (ix2 p 0)) * w (ix2 k (⟨q.val, by omega⟩ : Fin 1024)))
      + b (ix2 (0 : Fin 1) (⟨q.val, by omega⟩ : Fin 1024)) = _
  rw [hb, dif_pos hq]
  congr 1
  refine Finset.sum_congr rfl fun k _ => ?_
  rw [hw, dif_pos hq]

/-- The second kernel's formula over an aggregate that agrees with a 1000-wide one on its first 1000 columns, a weight
    padded with zero ROWS (and columns) and a padded bias is, on a column below 5000, the unpadded formula: the 24 extra
    terms of the contraction are products with zero. -/
theorem layer2_col (a : S2048x1024.Idx → EReal) (r : S2048x1.Idx → EReal) (w : S1024x5120.Idx → EReal)
    (b : S1x5120.Idx → EReal) (a' : (⟨2, ![2048, 1000]⟩ : Shape).Idx → EReal)
    (w' : (⟨2, ![1000, 5000]⟩ : Shape).Idx → EReal) (b' : (⟨1, ![5000]⟩ : Shape).Idx → EReal)
    (ha : ∀ (p : Fin 2048) (k : Fin 1000), a (ix2 p (⟨k.val, by omega⟩ : Fin 1024)) = a' (ix2 p k))
    (hw : ∀ (k : Fin 1024) (q : Fin 5120), w (ix2 k q)
      = if hk : k.val < 1000 then (if hq : q.val < 5000 then w' (ix2 ⟨k.val, hk⟩ ⟨q.val, hq⟩) else 0) else 0)
    (hb : ∀ q : Fin 5120, b (ix2 (0 : Fin 1) q) = if hq : q.val < 5000 then b' (ix1 ⟨q.val, hq⟩) else 0)
    (p : Fin 2048) (n : Fin 5000) :
    layer2 a r w b (ix2 p (⟨n.val, by omega⟩ : Fin 5120))
      = Ideal.logistic ((∑ k : Fin 1000, (a' (ix2 p k) * r (ix2 p 0)) * w' (ix2 k n)) + b' (ix1 n)) := by
  have hn : (⟨n.val, by omega⟩ : Fin 5120).val < 5000 := n.isLt
  show Ideal.logistic ((∑ k : Fin 1024, (a (ix2 p k) * r (ix2 p 0)) * w (ix2 k (⟨n.val, by omega⟩ : Fin 5120)))
      + b (ix2 (0 : Fin 1) (⟨n.val, by omega⟩ : Fin 5120))) = _
  rw [hb, dif_pos hn]
  congr 2
  refine sum_1024_of_tail_zero _ _ (fun k => ?_) (fun k hk => ?_)
  · have hk : (⟨k.val, by omega⟩ : Fin 1024).val < 1000 := k.isLt
    rw [ha, hw, dif_pos hk, dif_pos hn]
  · rw [hw, dif_neg (by omega), mul_zero]

/-! ## The two programs -/

variable (m : (ℓ : Loc nD τ sig) → Buf (Elt Ideal) ℓ) (ρ : Dev nD → PrngReg)

/-- What the first kernel region leaves in its output array: the padded hidden layer, as one formula of the four
    arrays the region reads. -/
theorem hidden_array (c : Dev nD) :
    W10 (F := Ideal) m ρ c (Proc.devRef .tc main_v29)
      = layer1 (V9 m ρ c main_v22) (V9 m ρ c main_v24) (V9 m ρ c main_v28) (V9 m ρ c main_v27) :=
  (W10_arr (F := Ideal) m ρ c 4).trans (region0_array (V9 m ρ) c)

/-- On its first 1000 columns the kernel program's hidden layer, scaled by the source-side factor of layer 2, is the
    reference's scaled hidden layer. -/
theorem hidden_col (c : Dev nD) (H : S10000x1024.Idx → EReal)
    (hH : H = W10 (F := Ideal) m ρ c (Proc.devRef .tc main_v29)) (p : Fin 10000) (q : Fin 1000) :
    H (ix2 p (⟨q.val, by omega⟩ : Fin 1024)) * Cert.ReferenceIdeal.Read.val_main_v41 (F := Ideal) (m ((c : Thread nD τ).loc main_arg7)) (ix2 p 0)
      = Cert.ReferenceIdeal.Read.val_main_v43 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix2 p q) := by
  subst hH
  rw [Cert.ReferenceIdeal.RefValue.layer1_out_apply, hidden_array,
    layer1_col _ _ _ _ (m ((c : Thread nD τ).loc main_arg1)) (m ((c : Thread nD τ).loc main_arg2))
      (Cert.KernelIdeal.HostStages.entry0_weight m ρ c) (Cert.KernelIdeal.HostStages.entry0_bias m ρ c) p q,
    Cert.KernelIdeal.HostStages.entry0_agg, Cert.KernelIdeal.HostStages.entry0_rdeg]

/-- On its first 1000 columns the kernel program's layer-2 aggregate is the reference's. -/
theorem agg2_col (c : Dev nD) (r : Fin 2048) (k : Fin 1000) :
    (V21 (F := Ideal) m ρ c main_v52 : S2048x1024.Idx → EReal) (ix2 r (⟨k.val, by omega⟩ : Fin 1024))
      = Cert.ReferenceIdeal.Read.val_main_v53 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (ix2 r k) := by
  rw [Cert.KernelIdeal.HostStages1.entry1_agg_apply, Cert.ReferenceIdeal.RefValue.layer2_agg_apply]
  unfold Cert.KernelIdeal.HostStages1.edgeSum
  show (_ : EReal) = _
  refine Finset.sum_congr rfl fun e _ => ?_
  exact if_congr Iff.rfl (hidden_col m ρ c _ rfl _ k) rfl

/-- THE RESULT, element by element: the kernel program's result buffer holds the reference's result. -/
theorem result_eq (c : Dev nD) (p : Fin 2048) (n : Fin 5000) :
    (W23 (F := Ideal) m ρ c (Proc.devRef .tc main_v61) : S2048x5000.Idx → EReal) (ix2 p n)
      = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 p n) := by
  rw [Cert.KernelIdeal.HostStages1.result_apply, Cert.ReferenceIdeal.RefValue.result_apply,
    layer2_col _ _ _ _ (Cert.ReferenceIdeal.Read.val_main_v53 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) (m ((c : Thread nD τ).loc main_arg3)) (m ((c : Thread nD τ).loc main_arg4))
      (agg2_col m ρ c) (Cert.KernelIdeal.HostStages1.entry1_weight m ρ c) (Cert.KernelIdeal.HostStages1.entry1_bias m ρ c) p n,
    Cert.KernelIdeal.HostStages1.entry1_rdeg]

end Cert.Bridge
end
-- ==== Proof.lean ====
/-
  The certificate of a two-layer graph convolution with a final sigmoid.

  The kernel program does the graph aggregation of each layer on the host (a gather of rows along the edges and a
  segment sum into the destination rows) and each layer's dense part in a kernel: the aggregate's rows are scaled by
  1 / sqrt(in-degree), multiplied by the weight matrix and shifted by the bias; the second kernel ends with the logistic
  function.  Its weights and biases are padded with zeros (the hidden width 1000 to 1024, the output width 5000 to 5120)
  and the result is cut back to 5000 columns.  The reference does the same computation unpadded, with the sigmoid spelt
  1 / (1 + exp(−x)).

  Frames: the two kernel programs' frames are the generated ones; the reference has no kernel, and its frame is its
  generated run with the result dropped.  No operation was rewritten by the idealization, so there is nothing to
  preserve.  At the exact instance both programs end with equal results: the kernel program's result buffer is read off
  its run (the contents at the last boundary of its chain of host stretches and regions), the reference's off its run,
  and the two are equal element by element because zero padding adds only vanishing terms (Proof/Bridge.lean).
-/
import proofs.«156711_j13134009991724_2_alg».proof.Defs
import proofs.«156711_j13134009991724_2_alg».proof.Proof.Gen.Kernel
import proofs.«156711_j13134009991724_2_alg».proof.Proof.Gen.Kernel.Skeleton
import proofs.«156711_j13134009991724_2_alg».proof.Proof.Gen.Kernel.Launch
import proofs.«156711_j13134009991724_2_alg».proof.Proof.Gen.Kernel.Points
import proofs.«156711_j13134009991724_2_alg».proof.Proof.Gen.Kernel.Frame
import proofs.«156711_j13134009991724_2_alg».proof.Proof.Gen.KernelIdeal
import proofs.«156711_j13134009991724_2_alg».proof.Proof.Gen.KernelIdeal.Skeleton
import proofs.«156711_j13134009991724_2_alg».proof.Proof.Gen.KernelIdeal.Launch
import proofs.«156711_j13134009991724_2_alg».proof.Proof.Gen.KernelIdeal.Points
import proofs.«156711_j13134009991724_2_alg».proof.Proof.Gen.KernelIdeal.Frame
import proofs.«156711_j13134009991724_2_alg».proof.Proof.Gen.ReferenceIdeal
import proofs.«156711_j13134009991724_2_alg».proof.Proof.Gen.ReferenceIdeal.Run
import proofs.«156711_j13134009991724_2_alg».proof.Proof.Gen.ReferenceIdeal.Read
import proofs.«156711_j13134009991724_2_alg».proof.Proof.Gen.Pre_finite_inputs
import proofs.«156711_j13134009991724_2_alg».proof.Proof.KernelRun
import proofs.«156711_j13134009991724_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel program runs and keeps its arguments. -/
theorem frame_kernel : Cert.frame_Kernel :=
  fun m ρ _ => Cert.Kernel.Gen.frame m ρ

/-- The idealized kernel program runs and keeps its arguments. -/
theorem frame_kernel_ideal : Cert.frame_KernelIdeal :=
  fun m ρ _ => Cert.KernelIdeal.Gen.frame m ρ

/-- The reference runs and keeps its arguments: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- At the exact instance, from memories agreeing on the arguments, both programs run and end with equal results. -/
theorem algebraic : Cert.algebraic_KernelIdeal_ReferenceIdeal := by
  intro m ρ m' ρ' _ hagree
  refine ⟨fun c => Cert.KernelIdeal.Gen.W23 (F := Ideal) m ρ c (Proc.devRef .tc Cert.KernelIdeal.main_v61),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  funext i
  obtain ⟨p, n, rfl⟩ : ∃ (p : Fin 2048) (n : Fin 5000), i = ix2 p n := ⟨i 0, i 1, eq_ix2 i⟩
  exact (Cert.Bridge.result_eq m ρ c p n).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
